-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S256x2048 : Shape := ⟨2, ![256, 2048]⟩
abbrev S256x1 : Shape := ⟨2, ![256, 1]⟩
abbrev S1x512 : Shape := ⟨2, ![1, 512]⟩
abbrev S512x2048 : Shape := ⟨2, ![512, 2048]⟩
abbrev S256x512 : Shape := ⟨2, ![256, 512]⟩
abbrev S256 : Shape := ⟨1, ![256]⟩

abbrev nBuf : Space → Nat
  | .hbm => 15
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x2048, .bf16⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S1x4096, .f32⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x2048, .bf16⟩
  | .local _ .vmem, ⟨1, _⟩ => ⟨S256x2048, .bf16⟩
  | .local _ .vmem, ⟨2, _⟩ => ⟨S4096x2048, .bf16⟩
  | .local _ .vmem, ⟨3, _⟩ => ⟨S256x1, .f32⟩
  | .local _ .vmem, ⟨4, _⟩ => ⟨S256x1, .f32⟩
  | .local _ .vmem, ⟨5, _⟩ => ⟨S1x512, .f32⟩
  | .local _ .vmem, ⟨6, _⟩ => ⟨S1x512, .f32⟩
  | .local _ .vmem, ⟨7, _⟩ => ⟨S256x1, .i32⟩
  | .local _ .vmem, ⟨8, _⟩ => ⟨S256x1, .i32⟩
  | .local _ .vmem, ⟨9, _⟩ => ⟨S1x512, .i32⟩
  | .local _ .vmem, ⟨10, _⟩ => ⟨S1x512, .i32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4096_S4096x1 : S4096.ShapeCasts S4096x1
  shapeCasts_S4096_S1x4096 : S4096.ShapeCasts S1x4096
  bitsLt_bf16_f32 : FTy.bits .bf16 < FTy.bits .f32
  reducesTo_S4096x2048_S4096_d1 : S4096x2048.ReducesTo [1] S4096
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S256x1_S256x512 : S256x1.Broadcasts S256x512
  broadcasts_S1x512_S256x512 : S1x512.Broadcasts S256x512
  reduces_S256x512_S256 : S256x512.Reduces [1] S256
  shapeCasts_S256_S256x1 : S256.ShapeCasts S256x1
  reducesTo_S4096x1_S_d0_1 : S4096x1.ReducesTo [0, 1] S_
  dot_S256x2048_S512x2048_S256x512_1_1_0_0_n_n_wf : DotDims.WF S256x2048 S512x2048 S256x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x2048.size a ≤ S4096x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .i32 = 32 ∨ (Rect.block (s := S4096x1) S256x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .i32 = 32 ∨ (Rect.block (s := S1x4096) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_v2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S2048x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_call1_v0 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.TriConds.lean ====
/-
  The two branch conditions of the kernel body, as facts about the grid.

  The grid has 16 × 8 points, the column tile j the minor coordinate. The body resets its two running
  accumulators (the running row maximum and the running row minimum) when j = 0, and writes the margin
  loss of its 256 rows out when j = 7. Walking the points in order, j = 0 at the points ≡ 0 (mod 8)
  and j = 7 at the points ≡ 7 (mod 8); both are decided once over the 128 points.
-/
import proofs.«130512_j6657199309074_2_alg».proof.Proof.Gen.KernelIdeal.Launch
import proofs.«130512_j6657199309074_2_alg».proof.Proof.Gen.KernelIdeal.Skeleton
import proofs.«130512_j6657199309074_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile is the first one: the accumulators are reset. -/
abbrev condFirst (i : grid0.Coords) : Prop :=
  (Scalar.cmpi .ne (Scalar.extui (Scalar.cmpi .eq (BitVec.ofNat 32 (i 1).val) 0#32)) 0#32) = 1#1
/-- It is so at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- The column tile is the last one: the rows' losses are written out. -/
abbrev condLast (i : grid0.Coords) : Prop := k0_cond2 i = 1#1
/-- It is so at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

end Cert.KernelIdeal.Tri

end
-- ==== Proof.TriRunFirst.lean ====
/-
  The kernel body at a point of the FIRST column tile (j = 0).

  On whole staging buffers — the six inputs at their contents, the output's buffer at contents handed
  back untouched (nothing is stored into it at such a point), the two accumulators at anything — the
  body runs to its end holding the inputs as they were and each accumulator with its stores written:
  first the reset (the finite floor for the running maximum, the finite ceiling for the running
  minimum), then the tile's update over it.
-/
import proofs.«130512_j6657199309074_2_alg».proof.Proof.TriConds

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the two accumulators at a point of the first column tile, with the
    proof that it runs there. -/
noncomputable def runFirst (c : Dev nD) (i : grid0.Coords) (arg2 : Memref sig .tc .vmem S256x2048 .bf16) (harg2 : arg2.IsWhole) (arg3 : Memref sig .tc .vmem S4096x2048 .bf16) (harg3 : arg3.IsWhole) (arg4 : Memref sig .tc .vmem S256x1 .f32) (harg4 : arg4.IsWhole) (arg5 : Memref sig .tc .vmem S1x512 .f32) (harg5 : arg5.IsWhole) (arg6 : Memref sig .tc .vmem S256x1 .i32) (harg6 : arg6.IsWhole) (arg7 : Memref sig .tc .vmem S1x512 .i32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc0 : condFirst i) (hc1 : ¬condLast i) (x0 : Vec F S256x2048 .bf16) (x1 : Vec F S4096x2048 .bf16) (x2 : Vec F S256x1 .f32) (x3 : Vec F S1x512 .f32) (x4 : Vec F S256x1 .i32) (x5 : Vec F S1x512 .i32) :
    Σ' (LS0 : List (View.Piece (Elt F) S256x1 .f32)), { LS1 : List (View.Piece (Elt F) S256x1 .f32) //
      ∀ (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__trihard_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__trihard_kernel_eq_skeleton]; unfold cc0__trihard_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Tri

end
-- ==== Proof.TriRunMid.lean ====
/-
  The kernel body at a point of a MIDDLE column tile (0 < j < 7).

  On whole staging buffers — the six inputs at their contents, the output's buffer at contents handed
  back untouched, the two accumulators at what the point before left in them — the body runs to its
  end holding the inputs as they were and each accumulator with its one store written: the running
  maximum (minimum) of what it held and this tile's row maxima (minima).
-/
import proofs.«130512_j6657199309074_2_alg».proof.Proof.TriConds

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the two accumulators at a point of a middle column tile, with the
    proof that it runs there. -/
noncomputable def runMid (c : Dev nD) (i : grid0.Coords) (arg2 : Memref sig .tc .vmem S256x2048 .bf16) (harg2 : arg2.IsWhole) (arg3 : Memref sig .tc .vmem S4096x2048 .bf16) (harg3 : arg3.IsWhole) (arg4 : Memref sig .tc .vmem S256x1 .f32) (harg4 : arg4.IsWhole) (arg5 : Memref sig .tc .vmem S1x512 .f32) (harg5 : arg5.IsWhole) (arg6 : Memref sig .tc .vmem S256x1 .i32) (harg6 : arg6.IsWhole) (arg7 : Memref sig .tc .vmem S1x512 .i32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc0 : ¬condFirst i) (hc1 : ¬condLast i) (x0 : Vec F S256x2048 .bf16) (x1 : Vec F S4096x2048 .bf16) (x2 : Vec F S256x1 .f32) (x3 : Vec F S1x512 .f32) (x4 : Vec F S256x1 .i32) (x5 : Vec F S1x512 .i32) (xs0 xs1 : Vec F S256x1 .f32) :
    Σ' (LS0 : List (View.Piece (Elt F) S256x1 .f32)), { LS1 : List (View.Piece (Elt F) S256x1 .f32) //
      ∀ (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__trihard_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__trihard_kernel_eq_skeleton]; unfold cc0__trihard_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Tri

end
-- ==== Proof.TriRunLast.lean ====
/-
  The kernel body at a point of the LAST column tile (j = 7).

  On whole staging buffers — the six inputs at their contents, the output's buffer at anything, the
  two accumulators at what the point before left in them — the body runs to its end holding the inputs
  as they were, each accumulator with its one store written, and the output's buffer with its store
  written: the rows' margin losses, from the accumulators as this tile leaves them.
-/
import proofs.«130512_j6657199309074_2_alg».proof.Proof.TriConds

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output's buffer and in the two accumulators at a point of the last
    column tile, with the proof that it runs there. -/
noncomputable def runLast (c : Dev nD) (i : grid0.Coords) (arg2 : Memref sig .tc .vmem S256x2048 .bf16) (harg2 : arg2.IsWhole) (arg3 : Memref sig .tc .vmem S4096x2048 .bf16) (harg3 : arg3.IsWhole) (arg4 : Memref sig .tc .vmem S256x1 .f32) (harg4 : arg4.IsWhole) (arg5 : Memref sig .tc .vmem S1x512 .f32) (harg5 : arg5.IsWhole) (arg6 : Memref sig .tc .vmem S256x1 .i32) (harg6 : arg6.IsWhole) (arg7 : Memref sig .tc .vmem S1x512 .i32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc0 : ¬condFirst i) (hc1 : condLast i) (x0 : Vec F S256x2048 .bf16) (x1 : Vec F S4096x2048 .bf16) (x2 : Vec F S256x1 .f32) (x3 : Vec F S1x512 .f32) (x4 : Vec F S256x1 .i32) (x5 : Vec F S1x512 .i32) (xs0 xs1 : Vec F S256x1 .f32) :
    Σ' (L6 : List (View.Piece (Elt F) S256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__trihard_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__trihard_kernel_eq_skeleton]; unfold cc0__trihard_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Tri

end
-- ==== Proof.TriPieces.lean ====
/-
  The proof data of the one kernel region, and the body obligation at every grid point.

  The region walks 16 row tiles (256 rows each) by 8 column tiles (512 columns each), the column tile
  the minor coordinate. Six windows are inputs: the row tile of the matrix, the whole matrix (kept
  resident: fetched once), the row tile's and the column tile's squared norms, the row tile's and the
  column tile's labels. The body leaves every input block in place. The seventh window is the output:
  the 256 rows' margin losses, stored at the last column tile and written back there; at every other
  point nothing is stored into it and it is not written back. Two accumulators are carried from one
  column tile to the next: the running row maximum of the masked distances and the running row
  minimum; the invariant before a point holds each at what the point before left in it.
-/
import proofs.«130512_j6657199309074_2_alg».proof.Proof.TriRunFirst
import proofs.«130512_j6657199309074_2_alg».proof.Proof.TriRunMid
import proofs.«130512_j6657199309074_2_alg».proof.Proof.TriRunLast
import Idealize.ShloMosaic.Lib.Pipeline.Frame

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: after the eight host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: the body leaves
    the block in place, and where the window is not fetched its block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: the body leaves
    the block in place, and where the window is not fetched its block index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: the body leaves
    the block in place, and where the window is not fetched its block index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: the body leaves
    the block in place, and where the window is not fetched its block index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: the body leaves
    the block in place, and where the window is not fetched its block index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: the body leaves
    the block in place, and where the window is not fetched its block index has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from the last column tile nothing is stored into the output window: it is idle there, -/
theorem idle6 : ∀ t : Fin cfg0.N, ¬t.val % 8 = 7 → cfg0.idle 6 (grid0.coords t) = true := by decide +kernel
/-- and not written back; -/
theorem noFlush6 : ∀ t : Fin cfg0.N, ¬t.val % 8 = 7 → (cfg0.win 6).flush t = false := by decide +kernel
/-- at the last column tile it is live. -/
theorem live6 : ∀ t : Fin cfg0.N, t.val % 8 = 7 → cfg0.idle 6 (grid0.coords t) = false := by decide +kernel

/-! ## The staging memrefs at a point, and the accumulators -/

abbrev ms0 (t : Fin cfg0.N) : Memref sig .tc .vmem S256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)
/-- The running row maximum's buffer and the running row minimum's. -/
abbrev scM0 : Memref sig .tc .vmem S256x1 .f32 := Memref.whole cc0_scratch0
abbrev scM1 : Memref sig .tc .vmem S256x1 .f32 := Memref.whole cc0_scratch1
/-- Views through which their contents, and the output buffer's, are stated (reading stores that cover a buffer
    does not depend on the buffer read through). -/
abbrev VS0 : View sig .tc .vmem S256x1 .f32 := scM0.view
abbrev VS1 : View sig .tc .vmem S256x1 .f32 := scM1.view
abbrev VO6 : View sig .tc .vmem S256x1 .f32 := (Memref.whole cc0_stg6_0 : Memref sig .tc .vmem S256x1 .f32).view

/-- The invariant the region is entered with: each accumulator at anything, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The three cases at a point -/

/-- The body's run at a point of the first column tile, on that point's memrefs and blocks. -/
abbrev rFirst (c : Dev nD) (t : Fin cfg0.N) (h0 : t.val % 8 = 0) (h1 : ¬t.val % 8 = 7) :=
  runFirst (F := F) c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcondFirst t).mpr h0) (fun h => h1 ((hcondLast t).mp h)) (iblk m c 0 t) (iblk m c 1 t) (iblk m c 2 t) (iblk m c 3 t) (iblk m c 4 t) (iblk m c 5 t)
/-- At a point of a middle column tile, the accumulators at `xs0`, `xs1`. -/
abbrev rMid (c : Dev nD) (t : Fin cfg0.N) (h0 : ¬t.val % 8 = 0) (h1 : ¬t.val % 8 = 7) (xs0 xs1 : Vec F S256x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) xs0 xs1
/-- At a point of the last column tile. -/
abbrev rLast (c : Dev nD) (t : Fin cfg0.N) (h0 : ¬t.val % 8 = 0) (h1 : t.val % 8 = 7) (xs0 xs1 : Vec F S256x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcondFirst t).mp h)) ((hcondLast t).mpr h1) (iblk m c 0 t) (iblk m c 1 t) (iblk m c 2 t) (iblk m c 3 t) (iblk m c 4 t) (iblk m c 5 t) xs0 xs1

/-- A placeholder for the output buffer where nothing is stored into it: nothing consults it (the window is neither
    written back there nor read at the next point). -/
def outIdle : Vec F S256x1 .f32 := VO6.read (Elt F) (VO6.writes (Elt F) VO6.junk [])

/-- What the first column tile leaves in the running maximum: its stores read back. -/
def sFirst0 (c : Dev nD) (t : Fin cfg0.N) (h0 : t.val % 8 = 0) (h1 : ¬t.val % 8 = 7) : Vec F S256x1 .f32 :=
  VS0.read (Elt F) (VS0.writes (Elt F) VS0.junk (rFirst m c t h0 h1).1)
/-- and in the running minimum. -/
def sFirst1 (c : Dev nD) (t : Fin cfg0.N) (h0 : t.val % 8 = 0) (h1 : ¬t.val % 8 = 7) : Vec F S256x1 .f32 :=
  VS1.read (Elt F) (VS1.writes (Elt F) VS1.junk (rFirst m c t h0 h1).2.1)
theorem coverFirst0 (c : Dev nD) (t : Fin cfg0.N) (h0 : t.val % 8 = 0) (h1 : ¬t.val % 8 = 7) (y : S256x1.Idx) :
    ∃ pc ∈ (rFirst m c t h0 h1).1, y ∈ pc.1.set :=
  View.cover_of_tiledL (rFirst m c t h0 h1).1 S256x1.size (by sl_kernel_rfl) y
theorem coverFirst1 (c : Dev nD) (t : Fin cfg0.N) (h0 : t.val % 8 = 0) (h1 : ¬t.val % 8 = 7) (y : S256x1.Idx) :
    ∃ pc ∈ (rFirst m c t h0 h1).2.1, y ∈ pc.1.set :=
  View.cover_of_tiledL (rFirst m c t h0 h1).2.1 S256x1.size (by sl_kernel_rfl) y

/-- What a middle column tile leaves in the running maximum, -/
def sMid0 (c : Dev nD) (t : Fin cfg0.N) (h0 : ¬t.val % 8 = 0) (h1 : ¬t.val % 8 = 7) (xs0 xs1 : Vec F S256x1 .f32) : Vec F S256x1 .f32 :=
  VS0.read (Elt F) (VS0.writes (Elt F) VS0.junk (rMid m c t h0 h1 xs0 xs1).1)
/-- and in the running minimum. -/
def sMid1 (c : Dev nD) (t : Fin cfg0.N) (h0 : ¬t.val % 8 = 0) (h1 : ¬t.val % 8 = 7) (xs0 xs1 : Vec F S256x1 .f32) : Vec F S256x1 .f32 :=
  VS1.read (Elt F) (VS1.writes (Elt F) VS1.junk (rMid m c t h0 h1 xs0 xs1).2.1)
theorem coverMid0 (c : Dev nD) (t : Fin cfg0.N) (h0 : ¬t.val % 8 = 0) (h1 : ¬t.val % 8 = 7) (xs0 xs1 : Vec F S256x1 .f32) (y : S256x1.Idx) :
    ∃ pc ∈ (rMid m c t h0 h1 xs0 xs1).1, y ∈ pc.1.set :=
  View.cover_of_tiledL (rMid m c t h0 h1 xs0 xs1).1 S256x1.size (by sl_kernel_rfl) y
theorem coverMid1 (c : Dev nD) (t : Fin cfg0.N) (h0 : ¬t.val % 8 = 0) (h1 : ¬t.val % 8 = 7) (xs0 xs1 : Vec F S256x1 .f32) (y : S256x1.Idx) :
    ∃ pc ∈ (rMid m c t h0 h1 xs0 xs1).2.1, y ∈ pc.1.set :=
  View.cover_of_tiledL (rMid m c t h0 h1 xs0 xs1).2.1 S256x1.size (by sl_kernel_rfl) y

/-- What the last column tile leaves in the output buffer, -/
def oLast (c : Dev nD) (t : Fin cfg0.N) (h0 : ¬t.val % 8 = 0) (h1 : t.val % 8 = 7) (xs0 xs1 : Vec F S256x1 .f32) : Vec F S256x1 .f32 :=
  VO6.read (Elt F) (VO6.writes (Elt F) VO6.junk (rLast m c t h0 h1 xs0 xs1).1)
/-- in the running maximum, -/
def sLast0 (c : Dev nD) (t : Fin cfg0.N) (h0 : ¬t.val % 8 = 0) (h1 : t.val % 8 = 7) (xs0 xs1 : Vec F S256x1 .f32) : Vec F S256x1 .f32 :=
  VS0.read (Elt F) (VS0.writes (Elt F) VS0.junk (rLast m c t h0 h1 xs0 xs1).2.1)
/-- and in the running minimum. -/
def sLast1 (c : Dev nD) (t : Fin cfg0.N) (h0 : ¬t.val % 8 = 0) (h1 : t.val % 8 = 7) (xs0 xs1 : Vec F S256x1 .f32) : Vec F S256x1 .f32 :=
  VS1.read (Elt F) (VS1.writes (Elt F) VS1.junk (rLast m c t h0 h1 xs0 xs1).2.2.1)
theorem coverLastO (c : Dev nD) (t : Fin cfg0.N) (h0 : ¬t.val % 8 = 0) (h1 : t.val % 8 = 7) (xs0 xs1 : Vec F S256x1 .f32) (y : S256x1.Idx) :
    ∃ pc ∈ (rLast m c t h0 h1 xs0 xs1).1, y ∈ pc.1.set :=
  View.cover_of_tiledL (rLast m c t h0 h1 xs0 xs1).1 S256x1.size (by sl_kernel_rfl) y
theorem coverLast0 (c : Dev nD) (t : Fin cfg0.N) (h0 : ¬t.val % 8 = 0) (h1 : t.val % 8 = 7) (xs0 xs1 : Vec F S256x1 .f32) (y : S256x1.Idx) :
    ∃ pc ∈ (rLast m c t h0 h1 xs0 xs1).2.1, y ∈ pc.1.set :=
  View.cover_of_tiledL (rLast m c t h0 h1 xs0 xs1).2.1 S256x1.size (by sl_kernel_rfl) y
theorem coverLast1 (c : Dev nD) (t : Fin cfg0.N) (h0 : ¬t.val % 8 = 0) (h1 : t.val % 8 = 7) (xs0 xs1 : Vec F S256x1 .f32) (y : S256x1.Idx) :
    ∃ pc ∈ (rLast m c t h0 h1 xs0 xs1).2.2.1, y ∈ pc.1.set :=
  View.cover_of_tiledL (rLast m c t h0 h1 xs0 xs1).2.2.1 S256x1.size (by sl_kernel_rfl) y

end Cert.KernelIdeal.Tri

end
-- ==== Proof.TriDat.lean ====
/-
  What the output buffer and the two accumulators hold after each grid point, the region's invariant, the
  proof data, and the body obligation.

  After a point of the first column tile the accumulators hold that tile's update over the reset; after a
  later point, that tile's update over what the point before left; at the last column tile the output
  buffer holds the rows' margin losses computed from the accumulators as that tile leaves them.
-/
import proofs.«130512_j6657199309074_2_alg».proof.Proof.TriPieces

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE ACCUMULATION: what the output buffer, the running maximum and the running minimum hold after the body at
    position `n`, by recursion on the position: the case the position's column tile selects, over what the
    position before left in the accumulators. -/
def outsAt (c : Dev nD) : (n : ℕ) → n < cfg0.N → Vec F S256x1 .f32 × Vec F S256x1 .f32 × Vec F S256x1 .f32
  | 0, hn => (outIdle, sFirst0 m c ⟨0, hn⟩ (Nat.zero_mod _) (by show ¬(0 : ℕ) % 8 = 7; decide), sFirst1 m c ⟨0, hn⟩ (Nat.zero_mod _) (by show ¬(0 : ℕ) % 8 = 7; decide))
  | n + 1, hn =>
    if h0 : (n + 1) % 8 = 0 then
      (outIdle, sFirst0 m c ⟨n + 1, hn⟩ h0 (by show ¬(n + 1) % 8 = 7; omega), sFirst1 m c ⟨n + 1, hn⟩ h0 (by show ¬(n + 1) % 8 = 7; omega))
    else
      if h1 : (n + 1) % 8 = 7 then
        (oLast m c ⟨n + 1, hn⟩ h0 h1 (outsAt c n (Nat.lt_of_succ_lt hn)).2.1 (outsAt c n (Nat.lt_of_succ_lt hn)).2.2,
          sLast0 m c ⟨n + 1, hn⟩ h0 h1 (outsAt c n (Nat.lt_of_succ_lt hn)).2.1 (outsAt c n (Nat.lt_of_succ_lt hn)).2.2,
          sLast1 m c ⟨n + 1, hn⟩ h0 h1 (outsAt c n (Nat.lt_of_succ_lt hn)).2.1 (outsAt c n (Nat.lt_of_succ_lt hn)).2.2)
      else
        (outIdle,
          sMid0 m c ⟨n + 1, hn⟩ h0 h1 (outsAt c n (Nat.lt_of_succ_lt hn)).2.1 (outsAt c n (Nat.lt_of_succ_lt hn)).2.2,
          sMid1 m c ⟨n + 1, hn⟩ h0 h1 (outsAt c n (Nat.lt_of_succ_lt hn)).2.1 (outsAt c n (Nat.lt_of_succ_lt hn)).2.2)

/-- At a point of the first column tile. -/
theorem outsAt_First (c : Dev nD) (t : Fin cfg0.N) (h0 : t.val % 8 = 0) (h1 : ¬t.val % 8 = 7) :
    outsAt m c t.val t.isLt = (outIdle, sFirst0 m c t h0 h1, sFirst1 m c t h0 h1) := by
  obtain ⟨n, hn⟩ := t
  cases n with
  | zero => exact rfl
  | succ n => exact (dif_pos h0).trans rfl

/-- At a point of a middle column tile: over what the point before left. -/
theorem outsAt_Mid (c : Dev nD) (t : Fin cfg0.N) (h0 : ¬t.val % 8 = 0) (h1 : ¬t.val % 8 = 7) :
    outsAt m c t.val t.isLt = (outIdle,
      sMid0 m c t h0 h1 (outsAt m c (t.val - 1) (Nat.lt_of_le_of_lt (Nat.sub_le _ _) t.isLt)).2.1 (outsAt m c (t.val - 1) (Nat.lt_of_le_of_lt (Nat.sub_le _ _) t.isLt)).2.2,
      sMid1 m c t h0 h1 (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point of the last column tile: over what the point before left. -/
theorem outsAt_Last (c : Dev nD) (t : Fin cfg0.N) (h0 : ¬t.val % 8 = 0) (h1 : t.val % 8 = 7) :
    outsAt m c t.val t.isLt = (oLast m c t h0 h1 (outsAt m c (t.val - 1) (Nat.lt_of_le_of_lt (Nat.sub_le _ _) t.isLt)).2.1 (outsAt m c (t.val - 1) (Nat.lt_of_le_of_lt (Nat.sub_le _ _) t.isLt)).2.2,
      sLast0 m c t h0 h1 (outsAt m c (t.val - 1) (Nat.lt_of_le_of_lt (Nat.sub_le _ _) t.isLt)).2.1 (outsAt m c (t.val - 1) (Nat.lt_of_le_of_lt (Nat.sub_le _ _) t.isLt)).2.2,
      sLast1 m c t h0 h1 (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point each accumulator at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The proof data -/

/-- The proof data of the region on core `c`: the arrays as the region finds them; after the body each input's buffer
    at its block and the output's at the accumulation's first component; the invariant carrying the accumulators;
    nothing owed. The matrix is handed to the region through two windows — its row tile and the whole of it —, so
    the two hold its array at the two halves of the full share; every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point. The inputs' buffers hold their blocks; the point's column tile says which case it is in;
    the invariant hands the body the accumulators at what the point before left (at anything at the first point) and
    takes them back at this point's contents; away from the last column tile the output buffer is handed back
    untouched, at the last one it is left at the rows' losses. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 7
    · exfalso; omega
    · -- the first column tile
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle6 t h1) (noFlush6 t h1)]
      rw [outsAt_First m c t h0 h1]
      unfold sFirst0 sFirst1; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((rFirst m c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverFirst0 m c t h0 h1)
            · unfold owns; iexists _; isplitr
              swap; · iexact HS1
              ipureintro; exact View.read_writes_of_cover _ _ _ _ _ (coverFirst1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((rFirst m c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverFirst0 m c t h0 h1)
            · unfold owns; iexists _; isplitr
              swap; · iexact HS1
              ipureintro; exact View.read_writes_of_cover _ _ _ _ _ (coverFirst1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · -- the last column tile
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t h1], after6]
      rw [outsAt_Last m c t h0 h1]
      unfold oLast sLast0 sLast1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((rLast m c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast0 m c t h0 h1 _ _)
          · unfold owns; iexists _; isplitr
            swap; · iexact HS1
            ipureintro; exact View.read_writes_of_cover _ _ _ _ _ (coverLast1 m c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastO m c t h0 h1 _ _)
    · -- a middle column tile
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle6 t h1) (noFlush6 t h1)]
      rw [outsAt_Mid m c t h0 h1]
      unfold sMid0 sMid1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((rMid m c t h0 h1 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid0 m c t h0 h1 _ _)
          · unfold owns; iexists _; isplitr
            swap; · iexact HS1
            ipureintro; exact View.read_writes_of_cover _ _ _ _ _ (coverMid1 m c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the accumulators' named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ hne, PhiA_eq]
  iintro ⟨⟨HS0, HS1⟩, Hg⟩
  isplitl [HS0 HS1]
  · isplitl [HS0]
    · iexists _; iexact HS0
    · iexists _; iexact HS1
  iexact Hg

end Cert.KernelIdeal.Tri

end
-- ==== Proof.TriLaunch.lean ====
/-
  The launch: the whole program's run, with the result named.

  The program is eight host operations (the two label layouts, the matrix recast for the matrix unit, the
  rows' squared norms in their two layouts), the kernel region, and four host operations (the sum of the
  rows' losses and its quotient by the number of rows). The matrix reaches the region through two windows;
  its buffer's full share is dealt to them by halves at the region's entry and made whole again at its exit.
  The four operations after the region touch the region's output array and four buffers of their own; they
  run holding exactly those five.
-/
import proofs.«130512_j6657199309074_2_alg».proof.Proof.TriDat
import Idealize.ShloMosaic.Lib.Pipeline.FrameSuffix

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later operations, at the contents the eight earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays, one by one -/

/-- The six buffers behind the seven windows' arrays, listed. -/
theorem arrBufs_chain (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v2) ↦{fullShare} Vv main_v2) ∗ (((c : Thread nD τ).loc main_v5) ↦{fullShare} Vv main_v5) ∗ (((c : Thread nD τ).loc main_v6) ↦{fullShare} Vv main_v6) ∗ (((c : Thread nD τ).loc main_v0) ↦{fullShare} Vv main_v0) ∗ (((c : Thread nD τ).loc main_v1) ↦{fullShare} Vv main_v1) ∗ (((c : Thread nD τ).loc main_v7) ↦{fullShare} Vv main_v7)) := by
  unfold Pipeline.arrBufs
  exact bigSep_eq_bigSepL_of_eq [main_v2, main_v5, main_v6, main_v0, main_v1, main_v7] (by decide) (by decide) _

/-- The proof data's arrays at contents `Fn`, window by window: the matrix's two windows at the two halves of the
    full share, every other window at the full share. -/
theorem arrays_chain (c : Dev nD) (Fn : (w : Fin cfg0.W) → Buf (Elt F) ((cfg0.win w).arr.view.loc (c : Thread nD τ))) :
    ((dats m 0 c).arrays Fn : sProp 𝕄)
      = iprop((((cfg0.win 0).arr.view.loc (c : Thread nD τ)) ↦{fullShare.left} Fn 0) ∗ (((cfg0.win 1).arr.view.loc (c : Thread nD τ)) ↦{fullShare.right} Fn 1) ∗ (((cfg0.win 2).arr.view.loc (c : Thread nD τ)) ↦{fullShare} Fn 2) ∗ (((cfg0.win 3).arr.view.loc (c : Thread nD τ)) ↦{fullShare} Fn 3) ∗ (((cfg0.win 4).arr.view.loc (c : Thread nD τ)) ↦{fullShare} Fn 4) ∗ (((cfg0.win 5).arr.view.loc (c : Thread nD τ)) ↦{fullShare} Fn 5) ∗ (((cfg0.win 6).arr.view.loc (c : Thread nD τ)) ↦{fullShare} Fn 6)) := by
  unfold Dat.arrays
  rw [bigSep_W0]
  have hs0 : (cfg0.win 0).arr.view.set = Finset.univ := (arr_whole0 0).set_eq_univ
  have hs1 : (cfg0.win 1).arr.view.set = Finset.univ := (arr_whole0 1).set_eq_univ
  have hs2 : (cfg0.win 2).arr.view.set = Finset.univ := (arr_whole0 2).set_eq_univ
  have hs3 : (cfg0.win 3).arr.view.set = Finset.univ := (arr_whole0 3).set_eq_univ
  have hs4 : (cfg0.win 4).arr.view.set = Finset.univ := (arr_whole0 4).set_eq_univ
  have hs5 : (cfg0.win 5).arr.view.set = Finset.univ := (arr_whole0 5).set_eq_univ
  have hs6 : (cfg0.win 6).arr.view.set = Finset.univ := (arr_whole0 6).set_eq_univ
  simp only [hs0, hs1, hs2, hs3, hs4, hs5, hs6]
  rfl

theorem arrAt_zero (c : Dev nD) (w : Fin cfg0.W) : (dats m 0 c).arrAt w 0 = V m c (Pipeline.arrRef spec0 w) := A_eq m c w

/-- ENTRY: the matrix's buffer is dealt to its two windows by halves; every other array goes to its window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_chain, arrBufs_chain]
  simp only [arrAt_zero]
  iintro ⟨H2, H5, H6, H0, H1, H7⟩
  ihave H2 := (pointsTo_share (PosShare.mem_left_op_right fullShare)).1 $$ H2
  icases H2 with ⟨H2a, H2b⟩
  isplitl [H2a]; · iexact H2a
  isplitl [H2b]; · iexact H2b
  isplitl [H5]; · iexact H5
  isplitl [H6]; · iexact H6
  isplitl [H0]; · iexact H0
  isplitl [H1]; · iexact H1
  iexact H7

/-! ## After the region -/

/-- The five buffers the four later operations touch: the region's output array and four of their own. -/
abbrev tailL : List (DevRef τ sig) :=
  [Proc.devRef .tc main_cst_0, Proc.devRef .tc main_v7, Proc.devRef .tc main_v8, Proc.devRef .tc main_cst_1, Proc.devRef .tc main_v9]
abbrev tailS : Finset (DevRef τ sig) := tailL.toFinset

/-- The contents the region leaves: its output array at what the write-backs leave, every other buffer as the region
    found it. -/
def V1 (c : Dev nD) : Valuation τ sig (Elt F) :=
  Function.update (V0 m c) (Proc.devRef .tc main_v7) ((dats m 0 c).arrAt 6 cfg0.N)

theorem V1_out (c : Dev nD) : V1 m c (Proc.devRef .tc main_v7) = (dats m 0 c).arrAt 6 cfg0.N := by
  unfold V1; exact Function.update_self _ _ _
theorem V1_ne (c : Dev nD) {b : Ref sig .tc} (h : b ≠ main_v7) : V1 m c (Proc.devRef .tc b) = V0 m c (Proc.devRef .tc b) := by
  unfold V1; exact Function.update_of_ne (StableHlo.devRef_ne_of_ne h) _ _

/-- The contents at the program's end: the four later operations over what the region leaves. -/
abbrev V2 (c : Dev nD) : Valuation τ sig (Elt F) := StableHlo.after hostOps1 (V1 m c)

/-- No later operation writes the region's output array. -/
theorem V2_out (c : Dev nD) : V2 m c (Proc.devRef .tc main_v7) = (dats m 0 c).arrAt 6 cfg0.N :=
  (StableHlo.after_of_forall_not_mem (b := Proc.devRef .tc main_v7) _ _ (List.forall_iff_forall_mem.mp (by
    simp only [hostOps1, List.Forall, StableHlo.nullary_writes, StableHlo.binary_writes, Finset.mem_singleton]
    repeat' apply And.intro
    all_goals exact StableHlo.devRef_ne_of_ne (by decide)))).trans (V1_out m c)

theorem held_tail (c : Dev nD) (Wv : Valuation τ sig (Elt F)) :
    (StableHlo.held (c : Thread nD τ) tailS Wv : sProp 𝕄)
      = iprop((((c : Thread nD τ).loc main_cst_0) ↦{fullShare} Wv (Proc.devRef .tc main_cst_0)) ∗ (((c : Thread nD τ).loc main_v7) ↦{fullShare} Wv (Proc.devRef .tc main_v7)) ∗ (((c : Thread nD τ).loc main_v8) ↦{fullShare} Wv (Proc.devRef .tc main_v8)) ∗ (((c : Thread nD τ).loc main_cst_1) ↦{fullShare} Wv (Proc.devRef .tc main_cst_1)) ∗ (((c : Thread nD τ).loc main_v9) ↦{fullShare} Wv (Proc.devRef .tc main_v9))) := by
  unfold StableHlo.held
  exact bigSep_eq_bigSepL_of_eq tailL rfl (by decide) _

theorem tail_sub : ∀ ops ∈ ([hostOps1] : List (List (HloOp τ sig (Elt F)))), ∀ op ∈ ops, op.bufs ⊆ tailS := by
  intro ops hops op hop
  simp only [List.mem_cons, List.mem_nil_iff, or_false] at hops
  rcases hops with rfl
  simp only [hostOps1, List.mem_cons, List.mem_nil_iff, or_false] at hop
  rcases hop with rfl | rfl | rfl | rfl
  all_goals simp only [StableHlo.nullary_bufs, StableHlo.binary_bufs]; decide

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- What bypasses the region, at the program's end: the five buffers no later operation touches as the region found
    them, the four the later operations write at what they leave. -/
def Zt (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_v3) ↦{fullShare} V m c main_v3) ∗ (((c : Thread nD τ).loc main_cst) ↦{fullShare} V m c main_cst) ∗ (((c : Thread nD τ).loc main_v4) ↦{fullShare} V m c main_v4)
    ∗ (((c : Thread nD τ).loc main_cst_0) ↦{fullShare} V2 m c (Proc.devRef .tc main_cst_0)) ∗ (((c : Thread nD τ).loc main_v8) ↦{fullShare} V2 m c (Proc.devRef .tc main_v8)) ∗ (((c : Thread nD τ).loc main_cst_1) ↦{fullShare} V2 m c (Proc.devRef .tc main_cst_1)) ∗ (((c : Thread nD τ).loc main_v9) ↦{fullShare} V2 m c (Proc.devRef .tc main_v9)))

set_option backward.isDefEq.respectTransparency.types false in
/-- THE LATER OPERATIONS: holding the region's arrays at their final contents and what bypassed the region, the four
    later operations run, and hand both back, the four buffers they write at what they leave. -/
theorem htail (c : Dev nD) (Q' : PUnit → sProp 𝕄) :
    iprop((iprop((dats m 0 c).arrays ((dats m 0 c).arrAt · cfg0.N) ∗ Zt m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  have hstep := Pipeline.wp_seqs_then (pcfgs (F := F)) defs₀ Variants.none c tailS [] [hostOps1] (tail_sub (F := F)) (tail_fresh (F := F)) (V1 m c) (K := Q')
  simp only [List.flatten_cons, List.flatten_nil, List.append_nil, List.map_cons, List.map_nil] at hstep
  rw [held_tail, held_tail] at hstep
  rw [Pipeline.unscopedRestP_none, unscopedRest0_eq, arrays_chain]
  unfold Zt
  iintro ⟨Hk, Hbd, ⟨A0, A1, A2, A3, A4, A5, A6⟩, ⟨R0, R1, R3, Rc, R4, Rc0, R8, Rc1, R9⟩⟩
  iapply hstep $$ [Hbd A6 Rc0 R8 Rc1 R9]
  · isplitl [Hbd]; · iexact Hbd
    rw [V1_ne m c (by decide : main_cst_0 ≠ main_v7), V1_out, V1_ne m c (by decide : main_v8 ≠ main_v7), V1_ne m c (by decide : main_cst_1 ≠ main_v7), V1_ne m c (by decide : main_v9 ≠ main_v7)]
    isplitl [Rc0]; · iexact Rc0
    isplitl [A6]; · iexact A6
    isplitl [R8]; · iexact R8
    isplitl [Rc1]; · iexact Rc1
    iexact R9
  iintro ⟨Hbd, Hc0, H7, H8, Hc1, H9⟩
  rw [Pipeline.chain_nil, wp_pure]
  imodintro
  iapply Hk
  rw [show StableHlo.after hostOps1 (V1 m c) (Proc.devRef .tc main_v7) = (dats m 0 c).arrAt 6 cfg0.N from V2_out m c]
  isplitl [A0 A1 A2 A3 A4 A5 H7]
  · isplitl [A0]; · iexact A0
    isplitl [A1]; · iexact A1
    isplitl [A2]; · iexact A2
    isplitl [A3]; · iexact A3
    isplitl [A4]; · iexact A4
    isplitl [A5]; · iexact A5
    iexact H7
  isplitl [R0]; · iexact R0
  isplitl [R1]; · iexact R1
  isplitl [R3]; · iexact R3
  isplitl [Rc]; · iexact Rc
  isplitl [R4]; · iexact R4
  isplitl [Hc0]; · iexact Hc0
  isplitl [H8]; · iexact H8
  isplitl [Hc1]; · iexact Hc1
  iexact H9

/-! ## The run -/

/-- No operation before the region writes an argument: the region finds each as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

set_option backward.isDefEq.respectTransparency.types false in
/-- THE RUN. At the compiled mesh, for any float values, from any memory with zero counters: every weakly fair execution
    of @main on the TensorCores terminates, nothing faulting; its result buffer ends at what the four later operations
    make of the region's output array, and both arguments end as launched. -/
theorem run_main : θ_run (defs (F := F)) (onTc (τ := τ) (main (F := F))) ⟨m, fun _ => 0, ρ⟩ (fun r => ∀ c : Dev nD,
      r.2.mem ((c : Thread nD τ).loc main_v9) = V2 m c (Proc.devRef .tc main_v9)
      ∧ r.2.mem ((c : Thread nD τ).loc main_arg0) = m ((c : Thread nD τ).loc main_arg0)
      ∧ r.2.mem ((c : Thread nD τ).loc main_arg1) = m ((c : Thread nD τ).loc main_arg1)) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zt m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c : Thread nD τ).loc main_v9) = V2 m c (Proc.devRef .tc main_v9)
      ∧ s.mem ((c : Thread nD τ).loc main_arg0) = V m c main_arg0
      ∧ s.mem ((c : Thread nD τ).loc main_arg1) = V m c main_arg1)
    (hY := fun c s' => by
      unfold Zt
      iintro ⟨-, ⟨R0, R1, -, -, -, -, -, -, R9⟩, HSI⟩
      icombine HSI R0 gives %h0
      icombine HSI R1 gives %h1
      icombine HSI R9 gives %h9
      imodintro
      isplitr; · ipureintro; exact ⟨Buf.eq_of_forall_mem_univ h9, Buf.eq_of_forall_mem_univ h0, Buf.eq_of_forall_mem_univ h1⟩
      iexact HSI)
    (hQ := fun s h c => ⟨(h c).2.2.1, (h c).2.2.2.1.trans (V_arg0 m c), (h c).2.2.2.2.trans (V_arg1 m c)⟩)

/-- info: 'Cert.KernelIdeal.Tri.run_main' depends on axioms: [propext, Classical.choice, Quot.sound] -/
#guard_msgs in #print axioms run_main

end Cert.KernelIdeal.Tri

end
-- ==== Proof.TriKConds.lean ====
/-
  The two branch conditions of the kernel body, as facts about the grid.

  The grid has 16 × 8 points, the column tile j the minor coordinate. The body resets its two running
  accumulators (the running row maximum and the running row minimum) when j = 0, and writes the margin
  loss of its 256 rows out when j = 7. Walking the points in order, j = 0 at the points ≡ 0 (mod 8)
  and j = 7 at the points ≡ 7 (mod 8); both are decided once over the 128 points.
-/
import proofs.«130512_j6657199309074_2_alg».proof.Proof.Gen.Kernel.Launch
import proofs.«130512_j6657199309074_2_alg».proof.Proof.Gen.Kernel.Skeleton
import proofs.«130512_j6657199309074_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile is the first one: the accumulators are reset. -/
abbrev condFirst (i : grid0.Coords) : Prop :=
  (Scalar.cmpi .ne (Scalar.extui (Scalar.cmpi .eq (BitVec.ofNat 32 (i 1).val) 0#32)) 0#32) = 1#1
/-- It is so at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- The column tile is the last one: the rows' losses are written out. -/
abbrev condLast (i : grid0.Coords) : Prop := k0_cond2 i = 1#1
/-- It is so at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

end Cert.Kernel.Tri

end
-- ==== Proof.TriKRunFirst.lean ====
/-
  The kernel body at a point of the FIRST column tile (j = 0).

  On whole staging buffers — the six inputs at their contents, the output's buffer at contents handed
  back untouched (nothing is stored into it at such a point), the two accumulators at anything — the
  body runs to its end holding the inputs as they were and each accumulator with its stores written:
  first the reset (the finite floor for the running maximum, the finite ceiling for the running
  minimum), then the tile's update over it.
-/
import proofs.«130512_j6657199309074_2_alg».proof.Proof.TriKConds

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the two accumulators at a point of the first column tile, with the
    proof that it runs there. -/
noncomputable def runFirst (c : Dev nD) (i : grid0.Coords) (arg2 : Memref sig .tc .vmem S256x2048 .bf16) (harg2 : arg2.IsWhole) (arg3 : Memref sig .tc .vmem S4096x2048 .bf16) (harg3 : arg3.IsWhole) (arg4 : Memref sig .tc .vmem S256x1 .f32) (harg4 : arg4.IsWhole) (arg5 : Memref sig .tc .vmem S1x512 .f32) (harg5 : arg5.IsWhole) (arg6 : Memref sig .tc .vmem S256x1 .i32) (harg6 : arg6.IsWhole) (arg7 : Memref sig .tc .vmem S1x512 .i32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc0 : condFirst i) (hc1 : ¬condLast i) (x0 : Vec F S256x2048 .bf16) (x1 : Vec F S4096x2048 .bf16) (x2 : Vec F S256x1 .f32) (x3 : Vec F S1x512 .f32) (x4 : Vec F S256x1 .i32) (x5 : Vec F S1x512 .i32) :
    Σ' (LS0 : List (View.Piece (Elt F) S256x1 .f32)), { LS1 : List (View.Piece (Elt F) S256x1 .f32) //
      ∀ (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__trihard_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__trihard_kernel_eq_skeleton]; unfold cc0__trihard_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Tri

end
-- ==== Proof.TriKRunMid.lean ====
/-
  The kernel body at a point of a MIDDLE column tile (0 < j < 7).

  On whole staging buffers — the six inputs at their contents, the output's buffer at contents handed
  back untouched, the two accumulators at what the point before left in them — the body runs to its
  end holding the inputs as they were and each accumulator with its one store written: the running
  maximum (minimum) of what it held and this tile's row maxima (minima).
-/
import proofs.«130512_j6657199309074_2_alg».proof.Proof.TriKConds

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the two accumulators at a point of a middle column tile, with the
    proof that it runs there. -/
noncomputable def runMid (c : Dev nD) (i : grid0.Coords) (arg2 : Memref sig .tc .vmem S256x2048 .bf16) (harg2 : arg2.IsWhole) (arg3 : Memref sig .tc .vmem S4096x2048 .bf16) (harg3 : arg3.IsWhole) (arg4 : Memref sig .tc .vmem S256x1 .f32) (harg4 : arg4.IsWhole) (arg5 : Memref sig .tc .vmem S1x512 .f32) (harg5 : arg5.IsWhole) (arg6 : Memref sig .tc .vmem S256x1 .i32) (harg6 : arg6.IsWhole) (arg7 : Memref sig .tc .vmem S1x512 .i32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc0 : ¬condFirst i) (hc1 : ¬condLast i) (x0 : Vec F S256x2048 .bf16) (x1 : Vec F S4096x2048 .bf16) (x2 : Vec F S256x1 .f32) (x3 : Vec F S1x512 .f32) (x4 : Vec F S256x1 .i32) (x5 : Vec F S1x512 .i32) (xs0 xs1 : Vec F S256x1 .f32) :
    Σ' (LS0 : List (View.Piece (Elt F) S256x1 .f32)), { LS1 : List (View.Piece (Elt F) S256x1 .f32) //
      ∀ (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__trihard_kernel i arg2 harg2 arg3 harg3 arg4 harg4 arg5 harg5 arg6 harg6 arg7 harg7 arg8 harg8 arg9 harg9 arg10 harg10) K } := by
  refine ⟨?_, ?_, fun xi6 E K => ?run⟩
  case run =>
    simp only [cc0__trihard_kernel_eq_skeleton]; unfold cc0__trihard_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Tri

end
-- ==== Proof.TriKRunLast.lean ====
/-
  The kernel body at a point of the LAST column tile (j = 7).

  On whole staging buffers — the six inputs at their contents, the output's buffer at anything, the
  two accumulators at what the point before left in them — the body runs to its end holding the inputs
  as they were, each accumulator with its one store written, and the output's buffer with its store
  written: the rows' margin losses, from the accumulators as this tile leaves them.
-/
import proofs.«130512_j6657199309074_2_alg».proof.Proof.TriKConds

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output's buffer and in the two accumulators at a point of the last
    column tile, with the proof that it runs there. -/
noncomputable def runLast (c : Dev nD) (i : grid0.Coords) (arg2 : Memref sig .tc .vmem S256x2048 .bf16) (harg2 : arg2.IsWhole) (arg3 : Memref sig .tc .vmem S4096x2048 .bf16) (harg3 : arg3.IsWhole) (arg4 : Memref sig .tc .vmem S256x1 .f32) (harg4 : arg4.IsWhole) (arg5 : Memref sig .tc .vmem S1x512 .f32) (harg5 : arg5.IsWhole) (arg6 : Memref sig .tc .vmem S256x1 .i32) (harg6 : arg6.IsWhole) (arg7 : Memref sig .tc .vmem S1x512 .i32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole)
    (hc0 : ¬condFirst i) (hc1 : condLast i) (x0 : Vec F S256x2048 .bf16) (x1 : Vec F S4096x2048 .bf16) (x2 : Vec F S256x1 .f32) (x3 : Vec F S1x512 .f32) (x4 : Vec F S256x1 .i32) (x5 : Vec F S1x512 .i32) (xs0 xs1 : Vec F S256x1 .f32) :
    Σ' (L6 : List (View.Piece (Elt F) S256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__trihard_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__trihard_kernel_eq_skeleton]; unfold cc0__trihard_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Tri

end
-- ==== Proof.TriKPieces.lean ====
/-
  The proof data of the one kernel region, and the body obligation at every grid point.

  The region walks 16 row tiles (256 rows each) by 8 column tiles (512 columns each), the column tile
  the minor coordinate. Six windows are inputs: the row tile of the matrix, the whole matrix (kept
  resident: fetched once), the row tile's and the column tile's squared norms, the row tile's and the
  column tile's labels. The body leaves every input block in place. The seventh window is the output:
  the 256 rows' margin losses, stored at the last column tile and written back there; at every other
  point nothing is stored into it and it is not written back. Two accumulators are carried from one
  column tile to the next: the running row maximum of the masked distances and the running row
  minimum; the invariant before a point holds each at what the point before left in it.
-/
import proofs.«130512_j6657199309074_2_alg».proof.Proof.TriKRunFirst
import proofs.«130512_j6657199309074_2_alg».proof.Proof.TriKRunMid
import proofs.«130512_j6657199309074_2_alg».proof.Proof.TriKRunLast
import Idealize.ShloMosaic.Lib.Pipeline.Frame

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: after the eight host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: the body leaves
    the block in place, and where the window is not fetched its block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: the body leaves
    the block in place, and where the window is not fetched its block index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: the body leaves
    the block in place, and where the window is not fetched its block index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: the body leaves
    the block in place, and where the window is not fetched its block index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: the body leaves
    the block in place, and where the window is not fetched its block index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: the body leaves
    the block in place, and where the window is not fetched its block index has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Away from the last column tile nothing is stored into the output window: it is idle there, -/
theorem idle6 : ∀ t : Fin cfg0.N, ¬t.val % 8 = 7 → cfg0.idle 6 (grid0.coords t) = true := by decide +kernel
/-- and not written back; -/
theorem noFlush6 : ∀ t : Fin cfg0.N, ¬t.val % 8 = 7 → (cfg0.win 6).flush t = false := by decide +kernel
/-- at the last column tile it is live. -/
theorem live6 : ∀ t : Fin cfg0.N, t.val % 8 = 7 → cfg0.idle 6 (grid0.coords t) = false := by decide +kernel

/-! ## The staging memrefs at a point, and the accumulators -/

abbrev ms0 (t : Fin cfg0.N) : Memref sig .tc .vmem S256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)
/-- The running row maximum's buffer and the running row minimum's. -/
abbrev scM0 : Memref sig .tc .vmem S256x1 .f32 := Memref.whole cc0_scratch0
abbrev scM1 : Memref sig .tc .vmem S256x1 .f32 := Memref.whole cc0_scratch1
/-- Views through which their contents, and the output buffer's, are stated (reading stores that cover a buffer
    does not depend on the buffer read through). -/
abbrev VS0 : View sig .tc .vmem S256x1 .f32 := scM0.view
abbrev VS1 : View sig .tc .vmem S256x1 .f32 := scM1.view
abbrev VO6 : View sig .tc .vmem S256x1 .f32 := (Memref.whole cc0_stg6_0 : Memref sig .tc .vmem S256x1 .f32).view

/-- The invariant the region is entered with: each accumulator at anything, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The three cases at a point -/

/-- The body's run at a point of the first column tile, on that point's memrefs and blocks. -/
abbrev rFirst (c : Dev nD) (t : Fin cfg0.N) (h0 : t.val % 8 = 0) (h1 : ¬t.val % 8 = 7) :=
  runFirst (F := F) c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcondFirst t).mpr h0) (fun h => h1 ((hcondLast t).mp h)) (iblk m c 0 t) (iblk m c 1 t) (iblk m c 2 t) (iblk m c 3 t) (iblk m c 4 t) (iblk m c 5 t)
/-- At a point of a middle column tile, the accumulators at `xs0`, `xs1`. -/
abbrev rMid (c : Dev nD) (t : Fin cfg0.N) (h0 : ¬t.val % 8 = 0) (h1 : ¬t.val % 8 = 7) (xs0 xs1 : Vec F S256x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) xs0 xs1
/-- At a point of the last column tile. -/
abbrev rLast (c : Dev nD) (t : Fin cfg0.N) (h0 : ¬t.val % 8 = 0) (h1 : t.val % 8 = 7) (xs0 xs1 : Vec F S256x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcondFirst t).mp h)) ((hcondLast t).mpr h1) (iblk m c 0 t) (iblk m c 1 t) (iblk m c 2 t) (iblk m c 3 t) (iblk m c 4 t) (iblk m c 5 t) xs0 xs1

/-- A placeholder for the output buffer where nothing is stored into it: nothing consults it (the window is neither
    written back there nor read at the next point). -/
def outIdle : Vec F S256x1 .f32 := VO6.read (Elt F) (VO6.writes (Elt F) VO6.junk [])

/-- What the first column tile leaves in the running maximum: its stores read back. -/
def sFirst0 (c : Dev nD) (t : Fin cfg0.N) (h0 : t.val % 8 = 0) (h1 : ¬t.val % 8 = 7) : Vec F S256x1 .f32 :=
  VS0.read (Elt F) (VS0.writes (Elt F) VS0.junk (rFirst m c t h0 h1).1)
/-- and in the running minimum. -/
def sFirst1 (c : Dev nD) (t : Fin cfg0.N) (h0 : t.val % 8 = 0) (h1 : ¬t.val % 8 = 7) : Vec F S256x1 .f32 :=
  VS1.read (Elt F) (VS1.writes (Elt F) VS1.junk (rFirst m c t h0 h1).2.1)
theorem coverFirst0 (c : Dev nD) (t : Fin cfg0.N) (h0 : t.val % 8 = 0) (h1 : ¬t.val % 8 = 7) (y : S256x1.Idx) :
    ∃ pc ∈ (rFirst m c t h0 h1).1, y ∈ pc.1.set :=
  View.cover_of_tiledL (rFirst m c t h0 h1).1 S256x1.size (by sl_kernel_rfl) y
theorem coverFirst1 (c : Dev nD) (t : Fin cfg0.N) (h0 : t.val % 8 = 0) (h1 : ¬t.val % 8 = 7) (y : S256x1.Idx) :
    ∃ pc ∈ (rFirst m c t h0 h1).2.1, y ∈ pc.1.set :=
  View.cover_of_tiledL (rFirst m c t h0 h1).2.1 S256x1.size (by sl_kernel_rfl) y

/-- What a middle column tile leaves in the running maximum, -/
def sMid0 (c : Dev nD) (t : Fin cfg0.N) (h0 : ¬t.val % 8 = 0) (h1 : ¬t.val % 8 = 7) (xs0 xs1 : Vec F S256x1 .f32) : Vec F S256x1 .f32 :=
  VS0.read (Elt F) (VS0.writes (Elt F) VS0.junk (rMid m c t h0 h1 xs0 xs1).1)
/-- and in the running minimum. -/
def sMid1 (c : Dev nD) (t : Fin cfg0.N) (h0 : ¬t.val % 8 = 0) (h1 : ¬t.val % 8 = 7) (xs0 xs1 : Vec F S256x1 .f32) : Vec F S256x1 .f32 :=
  VS1.read (Elt F) (VS1.writes (Elt F) VS1.junk (rMid m c t h0 h1 xs0 xs1).2.1)
theorem coverMid0 (c : Dev nD) (t : Fin cfg0.N) (h0 : ¬t.val % 8 = 0) (h1 : ¬t.val % 8 = 7) (xs0 xs1 : Vec F S256x1 .f32) (y : S256x1.Idx) :
    ∃ pc ∈ (rMid m c t h0 h1 xs0 xs1).1, y ∈ pc.1.set :=
  View.cover_of_tiledL (rMid m c t h0 h1 xs0 xs1).1 S256x1.size (by sl_kernel_rfl) y
theorem coverMid1 (c : Dev nD) (t : Fin cfg0.N) (h0 : ¬t.val % 8 = 0) (h1 : ¬t.val % 8 = 7) (xs0 xs1 : Vec F S256x1 .f32) (y : S256x1.Idx) :
    ∃ pc ∈ (rMid m c t h0 h1 xs0 xs1).2.1, y ∈ pc.1.set :=
  View.cover_of_tiledL (rMid m c t h0 h1 xs0 xs1).2.1 S256x1.size (by sl_kernel_rfl) y

/-- What the last column tile leaves in the output buffer, -/
def oLast (c : Dev nD) (t : Fin cfg0.N) (h0 : ¬t.val % 8 = 0) (h1 : t.val % 8 = 7) (xs0 xs1 : Vec F S256x1 .f32) : Vec F S256x1 .f32 :=
  VO6.read (Elt F) (VO6.writes (Elt F) VO6.junk (rLast m c t h0 h1 xs0 xs1).1)
/-- in the running maximum, -/
def sLast0 (c : Dev nD) (t : Fin cfg0.N) (h0 : ¬t.val % 8 = 0) (h1 : t.val % 8 = 7) (xs0 xs1 : Vec F S256x1 .f32) : Vec F S256x1 .f32 :=
  VS0.read (Elt F) (VS0.writes (Elt F) VS0.junk (rLast m c t h0 h1 xs0 xs1).2.1)
/-- and in the running minimum. -/
def sLast1 (c : Dev nD) (t : Fin cfg0.N) (h0 : ¬t.val % 8 = 0) (h1 : t.val % 8 = 7) (xs0 xs1 : Vec F S256x1 .f32) : Vec F S256x1 .f32 :=
  VS1.read (Elt F) (VS1.writes (Elt F) VS1.junk (rLast m c t h0 h1 xs0 xs1).2.2.1)
theorem coverLastO (c : Dev nD) (t : Fin cfg0.N) (h0 : ¬t.val % 8 = 0) (h1 : t.val % 8 = 7) (xs0 xs1 : Vec F S256x1 .f32) (y : S256x1.Idx) :
    ∃ pc ∈ (rLast m c t h0 h1 xs0 xs1).1, y ∈ pc.1.set :=
  View.cover_of_tiledL (rLast m c t h0 h1 xs0 xs1).1 S256x1.size (by sl_kernel_rfl) y
theorem coverLast0 (c : Dev nD) (t : Fin cfg0.N) (h0 : ¬t.val % 8 = 0) (h1 : t.val % 8 = 7) (xs0 xs1 : Vec F S256x1 .f32) (y : S256x1.Idx) :
    ∃ pc ∈ (rLast m c t h0 h1 xs0 xs1).2.1, y ∈ pc.1.set :=
  View.cover_of_tiledL (rLast m c t h0 h1 xs0 xs1).2.1 S256x1.size (by sl_kernel_rfl) y
theorem coverLast1 (c : Dev nD) (t : Fin cfg0.N) (h0 : ¬t.val % 8 = 0) (h1 : t.val % 8 = 7) (xs0 xs1 : Vec F S256x1 .f32) (y : S256x1.Idx) :
    ∃ pc ∈ (rLast m c t h0 h1 xs0 xs1).2.2.1, y ∈ pc.1.set :=
  View.cover_of_tiledL (rLast m c t h0 h1 xs0 xs1).2.2.1 S256x1.size (by sl_kernel_rfl) y

end Cert.Kernel.Tri

end
-- ==== Proof.TriKDat.lean ====
/-
  What the output buffer and the two accumulators hold after each grid point, the region's invariant, the
  proof data, and the body obligation.

  After a point of the first column tile the accumulators hold that tile's update over the reset; after a
  later point, that tile's update over what the point before left; at the last column tile the output
  buffer holds the rows' margin losses computed from the accumulators as that tile leaves them.
-/
import proofs.«130512_j6657199309074_2_alg».proof.Proof.TriKPieces

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE ACCUMULATION: what the output buffer, the running maximum and the running minimum hold after the body at
    position `n`, by recursion on the position: the case the position's column tile selects, over what the
    position before left in the accumulators. -/
def outsAt (c : Dev nD) : (n : ℕ) → n < cfg0.N → Vec F S256x1 .f32 × Vec F S256x1 .f32 × Vec F S256x1 .f32
  | 0, hn => (outIdle, sFirst0 m c ⟨0, hn⟩ (Nat.zero_mod _) (by show ¬(0 : ℕ) % 8 = 7; decide), sFirst1 m c ⟨0, hn⟩ (Nat.zero_mod _) (by show ¬(0 : ℕ) % 8 = 7; decide))
  | n + 1, hn =>
    if h0 : (n + 1) % 8 = 0 then
      (outIdle, sFirst0 m c ⟨n + 1, hn⟩ h0 (by show ¬(n + 1) % 8 = 7; omega), sFirst1 m c ⟨n + 1, hn⟩ h0 (by show ¬(n + 1) % 8 = 7; omega))
    else
      if h1 : (n + 1) % 8 = 7 then
        (oLast m c ⟨n + 1, hn⟩ h0 h1 (outsAt c n (Nat.lt_of_succ_lt hn)).2.1 (outsAt c n (Nat.lt_of_succ_lt hn)).2.2,
          sLast0 m c ⟨n + 1, hn⟩ h0 h1 (outsAt c n (Nat.lt_of_succ_lt hn)).2.1 (outsAt c n (Nat.lt_of_succ_lt hn)).2.2,
          sLast1 m c ⟨n + 1, hn⟩ h0 h1 (outsAt c n (Nat.lt_of_succ_lt hn)).2.1 (outsAt c n (Nat.lt_of_succ_lt hn)).2.2)
      else
        (outIdle,
          sMid0 m c ⟨n + 1, hn⟩ h0 h1 (outsAt c n (Nat.lt_of_succ_lt hn)).2.1 (outsAt c n (Nat.lt_of_succ_lt hn)).2.2,
          sMid1 m c ⟨n + 1, hn⟩ h0 h1 (outsAt c n (Nat.lt_of_succ_lt hn)).2.1 (outsAt c n (Nat.lt_of_succ_lt hn)).2.2)

/-- At a point of the first column tile. -/
theorem outsAt_First (c : Dev nD) (t : Fin cfg0.N) (h0 : t.val % 8 = 0) (h1 : ¬t.val % 8 = 7) :
    outsAt m c t.val t.isLt = (outIdle, sFirst0 m c t h0 h1, sFirst1 m c t h0 h1) := by
  obtain ⟨n, hn⟩ := t
  cases n with
  | zero => exact rfl
  | succ n => exact (dif_pos h0).trans rfl

/-- At a point of a middle column tile: over what the point before left. -/
theorem outsAt_Mid (c : Dev nD) (t : Fin cfg0.N) (h0 : ¬t.val % 8 = 0) (h1 : ¬t.val % 8 = 7) :
    outsAt m c t.val t.isLt = (outIdle,
      sMid0 m c t h0 h1 (outsAt m c (t.val - 1) (Nat.lt_of_le_of_lt (Nat.sub_le _ _) t.isLt)).2.1 (outsAt m c (t.val - 1) (Nat.lt_of_le_of_lt (Nat.sub_le _ _) t.isLt)).2.2,
      sMid1 m c t h0 h1 (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point of the last column tile: over what the point before left. -/
theorem outsAt_Last (c : Dev nD) (t : Fin cfg0.N) (h0 : ¬t.val % 8 = 0) (h1 : t.val % 8 = 7) :
    outsAt m c t.val t.isLt = (oLast m c t h0 h1 (outsAt m c (t.val - 1) (Nat.lt_of_le_of_lt (Nat.sub_le _ _) t.isLt)).2.1 (outsAt m c (t.val - 1) (Nat.lt_of_le_of_lt (Nat.sub_le _ _) t.isLt)).2.2,
      sLast0 m c t h0 h1 (outsAt m c (t.val - 1) (Nat.lt_of_le_of_lt (Nat.sub_le _ _) t.isLt)).2.1 (outsAt m c (t.val - 1) (Nat.lt_of_le_of_lt (Nat.sub_le _ _) t.isLt)).2.2,
      sLast1 m c t h0 h1 (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point each accumulator at anything; afterwards each at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The proof data -/

/-- The proof data of the region on core `c`: the arrays as the region finds them; after the body each input's buffer
    at its block and the output's at the accumulation's first component; the invariant carrying the accumulators;
    nothing owed. The matrix is handed to the region through two windows — its row tile and the whole of it —, so
    the two hold its array at the two halves of the full share; every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point. The inputs' buffers hold their blocks; the point's column tile says which case it is in;
    the invariant hands the body the accumulators at what the point before left (at anything at the first point) and
    takes them back at this point's contents; away from the last column tile the output buffer is handed back
    untouched, at the last one it is left at the rows' losses. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 7
    · exfalso; omega
    · -- the first column tile
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle6 t h1) (noFlush6 t h1)]
      rw [outsAt_First m c t h0 h1]
      unfold sFirst0 sFirst1; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((rFirst m c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverFirst0 m c t h0 h1)
            · unfold owns; iexists _; isplitr
              swap; · iexact HS1
              ipureintro; exact View.read_writes_of_cover _ _ _ _ _ (coverFirst1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((rFirst m c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverFirst0 m c t h0 h1)
            · unfold owns; iexists _; isplitr
              swap; · iexact HS1
              ipureintro; exact View.read_writes_of_cover _ _ _ _ _ (coverFirst1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · -- the last column tile
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t h1], after6]
      rw [outsAt_Last m c t h0 h1]
      unfold oLast sLast0 sLast1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((rLast m c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLast0 m c t h0 h1 _ _)
          · unfold owns; iexists _; isplitr
            swap; · iexact HS1
            ipureintro; exact View.read_writes_of_cover _ _ _ _ _ (coverLast1 m c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastO m c t h0 h1 _ _)
    · -- a middle column tile
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle6 t h1) (noFlush6 t h1)]
      rw [outsAt_Mid m c t h0 h1]
      unfold sMid0 sMid1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((rMid m c t h0 h1 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMid0 m c t h0 h1 _ _)
          · unfold owns; iexists _; isplitr
            swap; · iexact HS1
            ipureintro; exact View.read_writes_of_cover _ _ _ _ _ (coverMid1 m c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the accumulators' named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ hne, PhiA_eq]
  iintro ⟨⟨HS0, HS1⟩, Hg⟩
  isplitl [HS0 HS1]
  · isplitl [HS0]
    · iexists _; iexact HS0
    · iexists _; iexact HS1
  iexact Hg

end Cert.Kernel.Tri

end
-- ==== Proof.TriKLaunch.lean ====
/-
  The launch: the whole program's run, with the result named.

  The program is eight host operations (the two label layouts, the matrix recast for the matrix unit, the
  rows' squared norms in their two layouts), the kernel region, and four host operations (the sum of the
  rows' losses and its quotient by the number of rows). The matrix reaches the region through two windows;
  its buffer's full share is dealt to them by halves at the region's entry and made whole again at its exit.
  The four operations after the region touch the region's output array and four buffers of their own; they
  run holding exactly those five.
-/
import proofs.«130512_j6657199309074_2_alg».proof.Proof.TriKDat
import Idealize.ShloMosaic.Lib.Pipeline.FrameSuffix

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later operations, at the contents the eight earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays, one by one -/

/-- The six buffers behind the seven windows' arrays, listed. -/
theorem arrBufs_chain (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v2) ↦{fullShare} Vv main_v2) ∗ (((c : Thread nD τ).loc main_v5) ↦{fullShare} Vv main_v5) ∗ (((c : Thread nD τ).loc main_v6) ↦{fullShare} Vv main_v6) ∗ (((c : Thread nD τ).loc main_v0) ↦{fullShare} Vv main_v0) ∗ (((c : Thread nD τ).loc main_v1) ↦{fullShare} Vv main_v1) ∗ (((c : Thread nD τ).loc main_v7) ↦{fullShare} Vv main_v7)) := by
  unfold Pipeline.arrBufs
  exact bigSep_eq_bigSepL_of_eq [main_v2, main_v5, main_v6, main_v0, main_v1, main_v7] (by decide) (by decide) _

/-- The proof data's arrays at contents `Fn`, window by window: the matrix's two windows at the two halves of the
    full share, every other window at the full share. -/
theorem arrays_chain (c : Dev nD) (Fn : (w : Fin cfg0.W) → Buf (Elt F) ((cfg0.win w).arr.view.loc (c : Thread nD τ))) :
    ((dats m 0 c).arrays Fn : sProp 𝕄)
      = iprop((((cfg0.win 0).arr.view.loc (c : Thread nD τ)) ↦{fullShare.left} Fn 0) ∗ (((cfg0.win 1).arr.view.loc (c : Thread nD τ)) ↦{fullShare.right} Fn 1) ∗ (((cfg0.win 2).arr.view.loc (c : Thread nD τ)) ↦{fullShare} Fn 2) ∗ (((cfg0.win 3).arr.view.loc (c : Thread nD τ)) ↦{fullShare} Fn 3) ∗ (((cfg0.win 4).arr.view.loc (c : Thread nD τ)) ↦{fullShare} Fn 4) ∗ (((cfg0.win 5).arr.view.loc (c : Thread nD τ)) ↦{fullShare} Fn 5) ∗ (((cfg0.win 6).arr.view.loc (c : Thread nD τ)) ↦{fullShare} Fn 6)) := by
  unfold Dat.arrays
  rw [bigSep_W0]
  have hs0 : (cfg0.win 0).arr.view.set = Finset.univ := (arr_whole0 0).set_eq_univ
  have hs1 : (cfg0.win 1).arr.view.set = Finset.univ := (arr_whole0 1).set_eq_univ
  have hs2 : (cfg0.win 2).arr.view.set = Finset.univ := (arr_whole0 2).set_eq_univ
  have hs3 : (cfg0.win 3).arr.view.set = Finset.univ := (arr_whole0 3).set_eq_univ
  have hs4 : (cfg0.win 4).arr.view.set = Finset.univ := (arr_whole0 4).set_eq_univ
  have hs5 : (cfg0.win 5).arr.view.set = Finset.univ := (arr_whole0 5).set_eq_univ
  have hs6 : (cfg0.win 6).arr.view.set = Finset.univ := (arr_whole0 6).set_eq_univ
  simp only [hs0, hs1, hs2, hs3, hs4, hs5, hs6]
  rfl

theorem arrAt_zero (c : Dev nD) (w : Fin cfg0.W) : (dats m 0 c).arrAt w 0 = V m c (Pipeline.arrRef spec0 w) := A_eq m c w

/-- ENTRY: the matrix's buffer is dealt to its two windows by halves; every other array goes to its window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_chain, arrBufs_chain]
  simp only [arrAt_zero]
  iintro ⟨H2, H5, H6, H0, H1, H7⟩
  ihave H2 := (pointsTo_share (PosShare.mem_left_op_right fullShare)).1 $$ H2
  icases H2 with ⟨H2a, H2b⟩
  isplitl [H2a]; · iexact H2a
  isplitl [H2b]; · iexact H2b
  isplitl [H5]; · iexact H5
  isplitl [H6]; · iexact H6
  isplitl [H0]; · iexact H0
  isplitl [H1]; · iexact H1
  iexact H7

/-! ## After the region -/

/-- The five buffers the four later operations touch: the region's output array and four of their own. -/
abbrev tailL : List (DevRef τ sig) :=
  [Proc.devRef .tc main_cst_0, Proc.devRef .tc main_v7, Proc.devRef .tc main_v8, Proc.devRef .tc main_cst_1, Proc.devRef .tc main_v9]
abbrev tailS : Finset (DevRef τ sig) := tailL.toFinset

/-- The contents the region leaves: its output array at what the write-backs leave, every other buffer as the region
    found it. -/
def V1 (c : Dev nD) : Valuation τ sig (Elt F) :=
  Function.update (V0 m c) (Proc.devRef .tc main_v7) ((dats m 0 c).arrAt 6 cfg0.N)

theorem V1_out (c : Dev nD) : V1 m c (Proc.devRef .tc main_v7) = (dats m 0 c).arrAt 6 cfg0.N := by
  unfold V1; exact Function.update_self _ _ _
theorem V1_ne (c : Dev nD) {b : Ref sig .tc} (h : b ≠ main_v7) : V1 m c (Proc.devRef .tc b) = V0 m c (Proc.devRef .tc b) := by
  unfold V1; exact Function.update_of_ne (StableHlo.devRef_ne_of_ne h) _ _

/-- The contents at the program's end: the four later operations over what the region leaves. -/
abbrev V2 (c : Dev nD) : Valuation τ sig (Elt F) := StableHlo.after hostOps1 (V1 m c)

/-- No later operation writes the region's output array. -/
theorem V2_out (c : Dev nD) : V2 m c (Proc.devRef .tc main_v7) = (dats m 0 c).arrAt 6 cfg0.N :=
  (StableHlo.after_of_forall_not_mem (b := Proc.devRef .tc main_v7) _ _ (List.forall_iff_forall_mem.mp (by
    simp only [hostOps1, List.Forall, StableHlo.nullary_writes, StableHlo.binary_writes, Finset.mem_singleton]
    repeat' apply And.intro
    all_goals exact StableHlo.devRef_ne_of_ne (by decide)))).trans (V1_out m c)

theorem held_tail (c : Dev nD) (Wv : Valuation τ sig (Elt F)) :
    (StableHlo.held (c : Thread nD τ) tailS Wv : sProp 𝕄)
      = iprop((((c : Thread nD τ).loc main_cst_0) ↦{fullShare} Wv (Proc.devRef .tc main_cst_0)) ∗ (((c : Thread nD τ).loc main_v7) ↦{fullShare} Wv (Proc.devRef .tc main_v7)) ∗ (((c : Thread nD τ).loc main_v8) ↦{fullShare} Wv (Proc.devRef .tc main_v8)) ∗ (((c : Thread nD τ).loc main_cst_1) ↦{fullShare} Wv (Proc.devRef .tc main_cst_1)) ∗ (((c : Thread nD τ).loc main_v9) ↦{fullShare} Wv (Proc.devRef .tc main_v9))) := by
  unfold StableHlo.held
  exact bigSep_eq_bigSepL_of_eq tailL rfl (by decide) _

theorem tail_sub : ∀ ops ∈ ([hostOps1] : List (List (HloOp τ sig (Elt F)))), ∀ op ∈ ops, op.bufs ⊆ tailS := by
  intro ops hops op hop
  simp only [List.mem_cons, List.mem_nil_iff, or_false] at hops
  rcases hops with rfl
  simp only [hostOps1, List.mem_cons, List.mem_nil_iff, or_false] at hop
  rcases hop with rfl | rfl | rfl | rfl
  all_goals simp only [StableHlo.nullary_bufs, StableHlo.binary_bufs]; decide

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- What bypasses the region, at the program's end: the five buffers no later operation touches as the region found
    them, the four the later operations write at what they leave. -/
def Zt (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_v3) ↦{fullShare} V m c main_v3) ∗ (((c : Thread nD τ).loc main_cst) ↦{fullShare} V m c main_cst) ∗ (((c : Thread nD τ).loc main_v4) ↦{fullShare} V m c main_v4)
    ∗ (((c : Thread nD τ).loc main_cst_0) ↦{fullShare} V2 m c (Proc.devRef .tc main_cst_0)) ∗ (((c : Thread nD τ).loc main_v8) ↦{fullShare} V2 m c (Proc.devRef .tc main_v8)) ∗ (((c : Thread nD τ).loc main_cst_1) ↦{fullShare} V2 m c (Proc.devRef .tc main_cst_1)) ∗ (((c : Thread nD τ).loc main_v9) ↦{fullShare} V2 m c (Proc.devRef .tc main_v9)))

set_option backward.isDefEq.respectTransparency.types false in
/-- THE LATER OPERATIONS: holding the region's arrays at their final contents and what bypassed the region, the four
    later operations run, and hand both back, the four buffers they write at what they leave. -/
theorem htail (c : Dev nD) (Q' : PUnit → sProp 𝕄) :
    iprop((iprop((dats m 0 c).arrays ((dats m 0 c).arrAt · cfg0.N) ∗ Zt m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  have hstep := Pipeline.wp_seqs_then (pcfgs (F := F)) defs₀ Variants.none c tailS [] [hostOps1] (tail_sub (F := F)) (tail_fresh (F := F)) (V1 m c) (K := Q')
  simp only [List.flatten_cons, List.flatten_nil, List.append_nil, List.map_cons, List.map_nil] at hstep
  rw [held_tail, held_tail] at hstep
  rw [Pipeline.unscopedRestP_none, unscopedRest0_eq, arrays_chain]
  unfold Zt
  iintro ⟨Hk, Hbd, ⟨A0, A1, A2, A3, A4, A5, A6⟩, ⟨R0, R1, R3, Rc, R4, Rc0, R8, Rc1, R9⟩⟩
  iapply hstep $$ [Hbd A6 Rc0 R8 Rc1 R9]
  · isplitl [Hbd]; · iexact Hbd
    rw [V1_ne m c (by decide : main_cst_0 ≠ main_v7), V1_out, V1_ne m c (by decide : main_v8 ≠ main_v7), V1_ne m c (by decide : main_cst_1 ≠ main_v7), V1_ne m c (by decide : main_v9 ≠ main_v7)]
    isplitl [Rc0]; · iexact Rc0
    isplitl [A6]; · iexact A6
    isplitl [R8]; · iexact R8
    isplitl [Rc1]; · iexact Rc1
    iexact R9
  iintro ⟨Hbd, Hc0, H7, H8, Hc1, H9⟩
  rw [Pipeline.chain_nil, wp_pure]
  imodintro
  iapply Hk
  rw [show StableHlo.after hostOps1 (V1 m c) (Proc.devRef .tc main_v7) = (dats m 0 c).arrAt 6 cfg0.N from V2_out m c]
  isplitl [A0 A1 A2 A3 A4 A5 H7]
  · isplitl [A0]; · iexact A0
    isplitl [A1]; · iexact A1
    isplitl [A2]; · iexact A2
    isplitl [A3]; · iexact A3
    isplitl [A4]; · iexact A4
    isplitl [A5]; · iexact A5
    iexact H7
  isplitl [R0]; · iexact R0
  isplitl [R1]; · iexact R1
  isplitl [R3]; · iexact R3
  isplitl [Rc]; · iexact Rc
  isplitl [R4]; · iexact R4
  isplitl [Hc0]; · iexact Hc0
  isplitl [H8]; · iexact H8
  isplitl [Hc1]; · iexact Hc1
  iexact H9

/-! ## The run -/

/-- No operation before the region writes an argument: the region finds each as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

set_option backward.isDefEq.respectTransparency.types false in
/-- THE RUN. At the compiled mesh, for any float values, from any memory with zero counters: every weakly fair execution
    of @main on the TensorCores terminates, nothing faulting; its result buffer ends at what the four later operations
    make of the region's output array, and both arguments end as launched. -/
theorem run_main : θ_run (defs (F := F)) (onTc (τ := τ) (main (F := F))) ⟨m, fun _ => 0, ρ⟩ (fun r => ∀ c : Dev nD,
      r.2.mem ((c : Thread nD τ).loc main_v9) = V2 m c (Proc.devRef .tc main_v9)
      ∧ r.2.mem ((c : Thread nD τ).loc main_arg0) = m ((c : Thread nD τ).loc main_arg0)
      ∧ r.2.mem ((c : Thread nD τ).loc main_arg1) = m ((c : Thread nD τ).loc main_arg1)) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zt m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c : Thread nD τ).loc main_v9) = V2 m c (Proc.devRef .tc main_v9)
      ∧ s.mem ((c : Thread nD τ).loc main_arg0) = V m c main_arg0
      ∧ s.mem ((c : Thread nD τ).loc main_arg1) = V m c main_arg1)
    (hY := fun c s' => by
      unfold Zt
      iintro ⟨-, ⟨R0, R1, -, -, -, -, -, -, R9⟩, HSI⟩
      icombine HSI R0 gives %h0
      icombine HSI R1 gives %h1
      icombine HSI R9 gives %h9
      imodintro
      isplitr; · ipureintro; exact ⟨Buf.eq_of_forall_mem_univ h9, Buf.eq_of_forall_mem_univ h0, Buf.eq_of_forall_mem_univ h1⟩
      iexact HSI)
    (hQ := fun s h c => ⟨(h c).2.2.1, (h c).2.2.2.1.trans (V_arg0 m c), (h c).2.2.2.2.trans (V_arg1 m c)⟩)

/-- info: 'Cert.Kernel.Tri.run_main' depends on axioms: [propext, Classical.choice, Quot.sound] -/
#guard_msgs in #print axioms run_main

end Cert.Kernel.Tri

end
-- ==== Proof.TriFrames.lean ====
/-
  The three frame claims and the idealization claim.

  Each of the two kernel programs runs to its end, nothing faulting, and leaves both arguments as launched:
  the run of the whole program with its result named, the result dropped. The reference is host operations
  only: its run, the result dropped. The ideal pass rewrote nothing, so the idealized kernel is the kernel's
  own text read over the extended reals, and there is nothing to state of it.
-/
import proofs.«130512_j6657199309074_2_alg».proof.Defs
import proofs.«130512_j6657199309074_2_alg».proof.Proof.TriLaunch
import proofs.«130512_j6657199309074_2_alg».proof.Proof.TriKLaunch
import proofs.«130512_j6657199309074_2_alg».proof.Proof.Gen.ReferenceIdeal.Run
import proofs.«130512_j6657199309074_2_alg».proof.Proof.Gen.Pre_finite_inputs
import proofs.«130512_j6657199309074_2_alg».proof.Proof.Gen.ReferenceIdeal

noncomputable section

namespace Cert.Proof.Tri

open Idealize.ShloMosaic Idealize.ShloMosaic.TcCoe Idealize.SL.Sem

theorem frame_kernel : Cert.frame_Kernel := fun m ρ _ =>
  (θ_run Cert.Kernel.defs _ _).mono (fun _ h c => ⟨(h c).2.1, (h c).2.2⟩) (Cert.Kernel.Tri.run_main (F := Bits) m ρ)

theorem frame_kernelIdeal : Cert.frame_KernelIdeal := fun m ρ _ =>
  (θ_run Cert.KernelIdeal.defs _ _).mono (fun _ h c => ⟨(h c).2.1, (h c).2.2⟩) (Cert.KernelIdeal.Tri.run_main (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Tri

end
-- ==== Proof.TriValue.lean ====
/-
  What the region computes, point by point, as values.

  At a grid point (row tile i, column tile j) the body forms, from the row tile of the matrix and the
  j-th block of 512 rows of the resident matrix, the 256 × 512 block of masked squared distances, and
  updates the two accumulators: the running maximum takes the larger of what it held and the block's row
  maxima, the running minimum the smaller of what it held and the block's row minima. At the first column
  tile they start from the finite floor and the finite ceiling the reset stores; at the last one the
  rows' margin losses are formed from them. Reading each case's stores back gives exactly these updates,
  so what the accumulators hold after a point is a fold of the updates over the column tiles so far.
-/
import proofs.«130512_j6657199309074_2_alg».proof.Proof.TriDat
import Idealize.ShloMosaic.Lib.Pipeline.Value

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz : (![0, 0] : Fin 2 → Nat) = fun _ => 0 := funext fun a => by fin_cases a <;> rfl

/-- The j-th block of 512 rows of the resident matrix: what the body loads from it at column tile j. -/
def colTile (i : grid0.Coords) (x1 : Vec F S4096x2048 .bf16) : Vec F S512x2048 .bf16 :=
  View.ld x1 (Rect.unit (s := S4096x2048) (k0_off1 i) S512x2048.size (k0_off1_inb i))

/-- One column tile's update of the running maximum `a`: the larger of `a` and the block's row maxima. -/
def updMax (c : Dev nD) (t : Fin cfg0.N) (a : Vec F S256x1 .f32) : Vec F S256x1 .f32 :=
  k0_pay1 (k0_pay9 (iblk m c 0 t) (colTile (grid0.coords t) (iblk m c 1 t)) (iblk m c 2 t) (iblk m c 3 t) (iblk m c 4 t) (iblk m c 5 t) a)
/-- One column tile's update of the running minimum `a`: the smaller of `a` and the block's row minima. -/
def updMin (c : Dev nD) (t : Fin cfg0.N) (a : Vec F S256x1 .f32) : Vec F S256x1 .f32 :=
  k0_pay2 (k0_pay8 (iblk m c 0 t) (colTile (grid0.coords t) (iblk m c 1 t)) (iblk m c 2 t) (iblk m c 3 t) (iblk m c 4 t) (iblk m c 5 t)) a

/-- A middle column tile leaves the update of what the accumulators held. -/
theorem sMid0_eq (c : Dev nD) (t : Fin cfg0.N) (h0 : ¬t.val % 8 = 0) (h1 : ¬t.val % 8 = 7) (xs0 xs1 : Vec F S256x1 .f32) :
    sMid0 m c t h0 h1 xs0 xs1 = updMax m c t xs0 := by
  unfold sMid0
  rw [View.read_writes_eq_canon _ _ _ (coverMid0 m c t h0 h1 xs0 xs1)]
  unfold rMid runMid
  dsimp only
  rw [View.canon_unit_zero hz]
  simp only [View.readAt_eq_ld, (hs0 t).read_unread, (hs1 t).read_unread, (hs2 t).read_unread, (hs3 t).read_unread, (hs4 t).read_unread, (hs5 t).read_unread,
    (Memref.isWhole_whole cc0_scratch0).read_unread, (Memref.isWhole_whole cc0_scratch1).read_unread,
    View.ld_unit_zero (S := S256x2048) hz, View.ld_unit_zero (S := S256x1) hz, View.ld_unit_zero (S := S1x512) hz,
    View.readCov_unit_zero (S := S256x1) _ hz]
  rfl
theorem sMid1_eq (c : Dev nD) (t : Fin cfg0.N) (h0 : ¬t.val % 8 = 0) (h1 : ¬t.val % 8 = 7) (xs0 xs1 : Vec F S256x1 .f32) :
    sMid1 m c t h0 h1 xs0 xs1 = updMin m c t xs1 := by
  unfold sMid1
  rw [View.read_writes_eq_canon _ _ _ (coverMid1 m c t h0 h1 xs0 xs1)]
  unfold rMid runMid
  dsimp only
  rw [View.canon_unit_zero hz]
  simp only [View.readAt_eq_ld, (hs0 t).read_unread, (hs1 t).read_unread, (hs2 t).read_unread, (hs3 t).read_unread, (hs4 t).read_unread, (hs5 t).read_unread,
    (Memref.isWhole_whole cc0_scratch0).read_unread, (Memref.isWhole_whole cc0_scratch1).read_unread,
    View.ld_unit_zero (S := S256x2048) hz, View.ld_unit_zero (S := S256x1) hz, View.ld_unit_zero (S := S1x512) hz,
    View.readCov_unit_zero (S := S256x1) _ hz]
  rfl

/-- So does the last column tile, -/
theorem sLast0_eq (c : Dev nD) (t : Fin cfg0.N) (h0 : ¬t.val % 8 = 0) (h1 : t.val % 8 = 7) (xs0 xs1 : Vec F S256x1 .f32) :
    sLast0 m c t h0 h1 xs0 xs1 = updMax m c t xs0 := by
  unfold sLast0
  rw [View.read_writes_eq_canon _ _ _ (coverLast0 m c t h0 h1 xs0 xs1)]
  unfold rLast runLast
  dsimp only
  sl_unfold_words
  rw [View.canon_unit_zero hz]
  simp only [View.readAt_eq_ld, (hs0 t).read_unread, (hs1 t).read_unread, (hs2 t).read_unread, (hs3 t).read_unread, (hs4 t).read_unread, (hs5 t).read_unread,
    (Memref.isWhole_whole cc0_scratch0).read_unread, (Memref.isWhole_whole cc0_scratch1).read_unread,
    View.ld_unit_zero (S := S256x2048) hz, View.ld_unit_zero (S := S256x1) hz, View.ld_unit_zero (S := S1x512) hz,
    View.readCov_unit_zero (S := S256x1) _ hz]
  rfl
theorem sLast1_eq (c : Dev nD) (t : Fin cfg0.N) (h0 : ¬t.val % 8 = 0) (h1 : t.val % 8 = 7) (xs0 xs1 : Vec F S256x1 .f32) :
    sLast1 m c t h0 h1 xs0 xs1 = updMin m c t xs1 := by
  unfold sLast1
  rw [View.read_writes_eq_canon _ _ _ (coverLast1 m c t h0 h1 xs0 xs1)]
  unfold rLast runLast
  dsimp only
  sl_unfold_words
  rw [View.canon_unit_zero hz]
  simp only [View.readAt_eq_ld, (hs0 t).read_unread, (hs1 t).read_unread, (hs2 t).read_unread, (hs3 t).read_unread, (hs4 t).read_unread, (hs5 t).read_unread,
    (Memref.isWhole_whole cc0_scratch0).read_unread, (Memref.isWhole_whole cc0_scratch1).read_unread,
    View.ld_unit_zero (S := S256x2048) hz, View.ld_unit_zero (S := S256x1) hz, View.ld_unit_zero (S := S1x512) hz,
    View.readCov_unit_zero (S := S256x1) _ hz]
  rfl
/-- and it leaves in the output buffer the rows' margin losses, formed from the accumulators as it leaves them. -/
theorem oLast_eq (c : Dev nD) (t : Fin cfg0.N) (h0 : ¬t.val % 8 = 0) (h1 : t.val % 8 = 7) (xs0 xs1 : Vec F S256x1 .f32) :
    oLast m c t h0 h1 xs0 xs1 = k0_pay3 (updMax m c t xs0) (updMin m c t xs1) := by
  unfold oLast
  rw [View.read_writes_eq_canon _ _ _ (coverLastO m c t h0 h1 xs0 xs1)]
  unfold rLast runLast
  dsimp only
  sl_unfold_words
  rw [View.canon_unit_zero hz]
  simp only [View.readAt_eq_ld, (hs0 t).read_unread, (hs1 t).read_unread, (hs2 t).read_unread, (hs3 t).read_unread, (hs4 t).read_unread, (hs5 t).read_unread,
    (Memref.isWhole_whole cc0_scratch0).read_unread, (Memref.isWhole_whole cc0_scratch1).read_unread,
    View.ld_unit_zero (S := S256x2048) hz, View.ld_unit_zero (S := S256x1) hz, View.ld_unit_zero (S := S1x512) hz,
    View.readCov_unit_zero (S := S256x1) _ hz]
  rfl

/-- The first column tile leaves the update of the floor (of the ceiling) the reset stores. -/
theorem sFirst0_eq (c : Dev nD) (t : Fin cfg0.N) (h0 : t.val % 8 = 0) (h1 : ¬t.val % 8 = 7) :
    sFirst0 m c t h0 h1 = updMax m c t (k0_pay4 (F := F)) := by
  unfold sFirst0
  rw [View.read_writes_eq_canon _ _ _ (coverFirst0 m c t h0 h1)]
  unfold rFirst runFirst
  dsimp only
  sl_unfold_words
  rw [View.canon_cons_unit_zero (S := S256x1) hz]
  simp only [View.readAt_eq_ld, (hs0 t).read_unread, (hs1 t).read_unread, (hs2 t).read_unread, (hs3 t).read_unread, (hs4 t).read_unread, (hs5 t).read_unread,
    (Memref.isWhole_whole cc0_scratch0).read_unread, (Memref.isWhole_whole cc0_scratch1).read_unread,
    View.ld_unit_zero (S := S256x2048) hz, View.ld_unit_zero (S := S256x1) hz, View.ld_unit_zero (S := S1x512) hz,
    View.readCov_unit_zero (S := S256x1) _ hz]
  rfl
theorem sFirst1_eq (c : Dev nD) (t : Fin cfg0.N) (h0 : t.val % 8 = 0) (h1 : ¬t.val % 8 = 7) :
    sFirst1 m c t h0 h1 = updMin m c t (k0_pay5 (F := F)) := by
  unfold sFirst1
  rw [View.read_writes_eq_canon _ _ _ (coverFirst1 m c t h0 h1)]
  unfold rFirst runFirst
  dsimp only
  sl_unfold_words
  rw [View.canon_cons_unit_zero (S := S256x1) hz]
  simp only [View.readAt_eq_ld, (hs0 t).read_unread, (hs1 t).read_unread, (hs2 t).read_unread, (hs3 t).read_unread, (hs4 t).read_unread, (hs5 t).read_unread,
    (Memref.isWhole_whole cc0_scratch0).read_unread, (Memref.isWhole_whole cc0_scratch1).read_unread,
    View.ld_unit_zero (S := S256x2048) hz, View.ld_unit_zero (S := S256x1) hz, View.ld_unit_zero (S := S1x512) hz,
    View.readCov_unit_zero (S := S256x1) _ hz]
  rfl

end Cert.KernelIdeal.Tri

end
-- ==== Proof.TriAcc.lean ====
/-
  The accumulators after each grid point, in closed form.

  Within a row tile the running maximum after column tile j is the j-fold update of the floor the reset
  stores, and the running minimum the j-fold update of the ceiling; a new row tile starts afresh. After the
  last column tile the output buffer holds the margin losses formed from the two. This is what the
  recursion over the cases' stores computes, by induction on the point.
-/
import proofs.«130512_j6657199309074_2_alg».proof.Proof.TriValue

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The running maximum after position `n`: the update of the floor at the first column tile of a row tile, of what
    the position before left otherwise. -/
def accMax (c : Dev nD) : (n : ℕ) → n < cfg0.N → Vec F S256x1 .f32
  | 0, h => updMax m c ⟨0, h⟩ (k0_pay4 (F := F))
  | n + 1, h => if (n + 1) % 8 = 0 then updMax m c ⟨n + 1, h⟩ (k0_pay4 (F := F))
      else updMax m c ⟨n + 1, h⟩ (accMax c n (Nat.lt_of_succ_lt h))
/-- The running minimum after position `n`, likewise from the ceiling. -/
def accMin (c : Dev nD) : (n : ℕ) → n < cfg0.N → Vec F S256x1 .f32
  | 0, h => updMin m c ⟨0, h⟩ (k0_pay5 (F := F))
  | n + 1, h => if (n + 1) % 8 = 0 then updMin m c ⟨n + 1, h⟩ (k0_pay5 (F := F))
      else updMin m c ⟨n + 1, h⟩ (accMin c n (Nat.lt_of_succ_lt h))

theorem accMax_zero (c : Dev nD) (h : 0 < cfg0.N) : accMax m c 0 h = updMax m c ⟨0, h⟩ (k0_pay4 (F := F)) := by rw [accMax]
theorem accMax_first (c : Dev nD) (n : ℕ) (h : n + 1 < cfg0.N) (h0 : (n + 1) % 8 = 0) :
    accMax m c (n + 1) h = updMax m c ⟨n + 1, h⟩ (k0_pay4 (F := F)) := by rw [accMax, if_pos h0]
theorem accMax_next (c : Dev nD) (n : ℕ) (h : n + 1 < cfg0.N) (h0 : ¬(n + 1) % 8 = 0) :
    accMax m c (n + 1) h = updMax m c ⟨n + 1, h⟩ (accMax m c n (Nat.lt_of_succ_lt h)) := by rw [accMax, if_neg h0]
theorem accMin_zero (c : Dev nD) (h : 0 < cfg0.N) : accMin m c 0 h = updMin m c ⟨0, h⟩ (k0_pay5 (F := F)) := by rw [accMin]
theorem accMin_first (c : Dev nD) (n : ℕ) (h : n + 1 < cfg0.N) (h0 : (n + 1) % 8 = 0) :
    accMin m c (n + 1) h = updMin m c ⟨n + 1, h⟩ (k0_pay5 (F := F)) := by rw [accMin, if_pos h0]
theorem accMin_next (c : Dev nD) (n : ℕ) (h : n + 1 < cfg0.N) (h0 : ¬(n + 1) % 8 = 0) :
    accMin m c (n + 1) h = updMin m c ⟨n + 1, h⟩ (accMin m c n (Nat.lt_of_succ_lt h)) := by rw [accMin, if_neg h0]

/-- The recursion's three case equations at a successor position, over what position `n` left. -/
theorem outsAt_succ_first (c : Dev nD) (n : ℕ) (h : n + 1 < cfg0.N) (h0 : (n + 1) % 8 = 0) (h1 : ¬(n + 1) % 8 = 7) :
    outsAt m c (n + 1) h = (outIdle, sFirst0 m c ⟨n + 1, h⟩ h0 h1, sFirst1 m c ⟨n + 1, h⟩ h0 h1) :=
  (dif_pos h0).trans rfl
theorem outsAt_succ_last (c : Dev nD) (n : ℕ) (h : n + 1 < cfg0.N) (h0 : ¬(n + 1) % 8 = 0) (h1 : (n + 1) % 8 = 7) :
    outsAt m c (n + 1) h
      = (oLast m c ⟨n + 1, h⟩ h0 h1 (outsAt m c n (Nat.lt_of_succ_lt h)).2.1 (outsAt m c n (Nat.lt_of_succ_lt h)).2.2,
         sLast0 m c ⟨n + 1, h⟩ h0 h1 (outsAt m c n (Nat.lt_of_succ_lt h)).2.1 (outsAt m c n (Nat.lt_of_succ_lt h)).2.2,
         sLast1 m c ⟨n + 1, h⟩ h0 h1 (outsAt m c n (Nat.lt_of_succ_lt h)).2.1 (outsAt m c n (Nat.lt_of_succ_lt h)).2.2) :=
  (dif_neg h0).trans ((dif_pos h1).trans rfl)
theorem outsAt_succ_mid (c : Dev nD) (n : ℕ) (h : n + 1 < cfg0.N) (h0 : ¬(n + 1) % 8 = 0) (h1 : ¬(n + 1) % 8 = 7) :
    outsAt m c (n + 1) h
      = (outIdle,
         sMid0 m c ⟨n + 1, h⟩ h0 h1 (outsAt m c n (Nat.lt_of_succ_lt h)).2.1 (outsAt m c n (Nat.lt_of_succ_lt h)).2.2,
         sMid1 m c ⟨n + 1, h⟩ h0 h1 (outsAt m c n (Nat.lt_of_succ_lt h)).2.1 (outsAt m c n (Nat.lt_of_succ_lt h)).2.2) :=
  (dif_neg h0).trans ((dif_neg h1).trans rfl)

/-- What the recursion over the cases' stores leaves in the two accumulators IS these folds. -/
theorem outsAt_acc (c : Dev nD) : ∀ (n : ℕ) (h : n < cfg0.N),
    (outsAt m c n h).2.1 = accMax m c n h ∧ (outsAt m c n h).2.2 = accMin m c n h
  | 0, h => by
    have p0 : (⟨0, h⟩ : Fin cfg0.N).val % 8 = 0 := Nat.zero_mod 8
    have p1 : ¬(⟨0, h⟩ : Fin cfg0.N).val % 8 = 7 := by show ¬(0 : ℕ) % 8 = 7; decide
    rw [show outsAt m c 0 h = (outIdle, sFirst0 m c ⟨0, h⟩ p0 p1, sFirst1 m c ⟨0, h⟩ p0 p1) from rfl, accMax_zero, accMin_zero]
    dsimp only
    exact ⟨sFirst0_eq m c ⟨0, h⟩ p0 p1, sFirst1_eq m c ⟨0, h⟩ p0 p1⟩
  | n + 1, h => by
    obtain ⟨ih0, ih1⟩ := outsAt_acc c n (Nat.lt_of_succ_lt h)
    by_cases h0 : (n + 1) % 8 = 0
    · have h1 : ¬(n + 1) % 8 = 7 := by omega
      rw [outsAt_succ_first m c n h h0 h1, accMax_first m c n h h0, accMin_first m c n h h0]
      dsimp only
      exact ⟨sFirst0_eq m c ⟨n + 1, h⟩ h0 h1, sFirst1_eq m c ⟨n + 1, h⟩ h0 h1⟩
    · by_cases h1 : (n + 1) % 8 = 7
      · rw [outsAt_succ_last m c n h h0 h1, accMax_next m c n h h0, accMin_next m c n h h0, ← ih0, ← ih1]
        generalize outsAt m c n (Nat.lt_of_succ_lt h) = A
        dsimp only
        exact ⟨sLast0_eq m c ⟨n + 1, h⟩ h0 h1 A.2.1 A.2.2, sLast1_eq m c ⟨n + 1, h⟩ h0 h1 A.2.1 A.2.2⟩
      · rw [outsAt_succ_mid m c n h h0 h1, accMax_next m c n h h0, accMin_next m c n h h0, ← ih0, ← ih1]
        generalize outsAt m c n (Nat.lt_of_succ_lt h) = A
        dsimp only
        exact ⟨sMid0_eq m c ⟨n + 1, h⟩ h0 h1 A.2.1 A.2.2, sMid1_eq m c ⟨n + 1, h⟩ h0 h1 A.2.1 A.2.2⟩

/-- At the last column tile of a row tile the output buffer holds the margin losses formed from the two folds. -/
theorem outsAt_out (c : Dev nD) : ∀ (n : ℕ) (h : n < cfg0.N), n % 8 = 7 →
    (outsAt m c n h).1 = k0_pay3 (accMax m c n h) (accMin m c n h)
  | 0, _, h1 => absurd h1 (by decide)
  | n + 1, h, h1 => by
    have h0 : ¬(n + 1) % 8 = 0 := by omega
    obtain ⟨ih0, ih1⟩ := outsAt_acc m c n (Nat.lt_of_succ_lt h)
    rw [outsAt_succ_last m c n h h0 h1, accMax_next m c n h h0, accMin_next m c n h h0, ← ih0, ← ih1]
    generalize outsAt m c n (Nat.lt_of_succ_lt h) = A
    dsimp only
    exact oLast_eq m c ⟨n + 1, h⟩ h0 h1 A.2.1 A.2.2

/-- The folds' equations at any position: at the first column tile of a row tile the update of the floor (ceiling), -/
theorem accMax_of_first (c : Dev nD) : ∀ (n : ℕ) (h : n < cfg0.N), n % 8 = 0 → accMax m c n h = updMax m c ⟨n, h⟩ (k0_pay4 (F := F))
  | 0, h, _ => accMax_zero m c h
  | n + 1, h, h0 => accMax_first m c n h h0
theorem accMin_of_first (c : Dev nD) : ∀ (n : ℕ) (h : n < cfg0.N), n % 8 = 0 → accMin m c n h = updMin m c ⟨n, h⟩ (k0_pay5 (F := F))
  | 0, h, _ => accMin_zero m c h
  | n + 1, h, h0 => accMin_first m c n h h0
/-- elsewhere the update of what the position before holds. -/
theorem accMax_of_next (c : Dev nD) (n' n : ℕ) (h' : n' < cfg0.N) (h : n < cfg0.N) (e : n' + 1 = n) (h0 : ¬n % 8 = 0) :
    accMax m c n h = updMax m c ⟨n, h⟩ (accMax m c n' h') := by
  subst e; exact accMax_next m c n' h h0
theorem accMin_of_next (c : Dev nD) (n' n : ℕ) (h' : n' < cfg0.N) (h : n < cfg0.N) (e : n' + 1 = n) (h0 : ¬n % 8 = 0) :
    accMin m c n h = updMin m c ⟨n, h⟩ (accMin m c n' h') := by
  subst e; exact accMin_next m c n' h h0

end Cert.KernelIdeal.Tri

end
-- ==== Proof.TriSpec.lean ====
/-
  The hard-example triplet margin loss as ONE function of its two arguments, over the extended reals.

  For a matrix `x` of 4096 rows and 2048 columns and a label `t` per row:
    sq p      = 0 + ∑ₖ x(p,k)·x(p,k)                 the squared norm of row p
    dot p q   = ∑ₖ x(p,k)·x(q,k)                     the inner product of rows p and q
    dist p q  = (sq p + sq q) − 2·dot p q             the squared distance of rows p and q
    ap p q    = dist p q where t p = t q, else the low floor   (a positive pair's distance)
    an p q    = the high ceiling where t p = t q, else dist p q (a negative pair's distance)
    rowMaxRef p = sup over q of ap p q,  rowMinRef p = inf over q of an p q
    loss p    = max (rowMaxRef p − rowMinRef p + margin) 0
    G         = (0 + ∑ₚ loss p) / 4096
  Every float constant stays the extended real its word denotes (`Ideal.ofBits .f32 …`): two sides that carry the same
  word never evaluate it. Suprema and infima (not folds) are the currency; `fold_max_eq` / `fold_min_eq` turn a fold of
  `max` / `min` from any start into them, and the words of −∞ and +∞ are the lattice's bottom and top.
-/
import Idealize.ShloMosaic.PureOps.Ideal
import Idealize.ShloMosaic.PureOps.Ideal.Laws
import Idealize.ShloMosaic.Lib.ValueIdx

noncomputable section

open scoped BigOperators

namespace Cert.TriHard

open Idealize.ShloMosaic Idealize.ShloMosaic.ValueIdx

/-! ## Folds of `max` / `min` as suprema / infima -/

/-- A fold of `max` from `b` over a finite set is `max b` of the set's supremum. -/
theorem fold_max_eq {ι : Type*} (b : EReal) (f : ι → EReal) (s : Finset ι) :
    s.fold max b f = max b (s.sup f) := by
  classical
  induction s using Finset.induction_on with
  | empty => simp
  | insert a s ha ih => rw [Finset.fold_insert ha, Finset.sup_insert, ih]; exact max_left_comm _ _ _

/-- A fold of `min` from `b` over a finite set is `min b` of the set's infimum. -/
theorem fold_min_eq {ι : Type*} (b : EReal) (f : ι → EReal) (s : Finset ι) :
    s.fold min b f = min b (s.inf f) := by
  classical
  induction s using Finset.induction_on with
  | empty => simp
  | insert a s ha ih => rw [Finset.fold_insert ha, Finset.inf_insert, ih]; exact min_left_comm _ _ _

/-- From the bottom a fold of `max` IS the supremum. -/
theorem fold_max_bot {ι : Type*} (f : ι → EReal) (s : Finset ι) : s.fold max ⊥ f = s.sup f := by
  rw [fold_max_eq, max_eq_right bot_le]

/-- From the top a fold of `min` IS the infimum. -/
theorem fold_min_top {ι : Type*} (f : ι → EReal) (s : Finset ι) : s.fold min ⊤ f = s.inf f := by
  rw [fold_min_eq, min_eq_right le_top]

/-! ## The two infinite words -/

/-- The word of −∞ denotes the bottom of the extended reals. -/
theorem ofBits_neg_inf : Ideal.ofBits .f32 0xFF800000#32 = (⊥ : EReal) := by
  simp [Ideal.ofBits, Ideal.ieee]

/-- The word of +∞ denotes the top of the extended reals. -/
theorem ofBits_pos_inf : Ideal.ofBits .f32 0x7F800000#32 = (⊤ : EReal) := by
  simp [Ideal.ofBits, Ideal.ieee]

/-! ## A sum over a rank-1 index set is the sum over its coordinate -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The specification -/

/-- The squared norm of row `p`, summed from the zero word. -/
def sq (x : FVec Ideal ⟨2, ![4096, 2048]⟩ .f32) (p : Fin 4096) : EReal :=
  Ideal.ofBits .f32 0x00000000#32 + ∑ k : Fin 2048, x (ix2 p k) * x (ix2 p k)

/-- The inner product of rows `p` and `q`. -/
def dot (x : FVec Ideal ⟨2, ![4096, 2048]⟩ .f32) (p q : Fin 4096) : EReal :=
  ∑ k : Fin 2048, x (ix2 p k) * x (ix2 q k)

/-- The squared distance of rows `p` and `q`: ‖p‖² + ‖q‖² − 2⟨p, q⟩ (the word is 2.0). -/
def dist (x : FVec Ideal ⟨2, ![4096, 2048]⟩ .f32) (p q : Fin 4096) : EReal :=
  (sq x p + sq x q) - Ideal.ofBits .f32 0x40000000#32 * dot x p q

/-- Rows `p` and `q` carry the same label, as a one-bit word. -/
def same (t : IVec ⟨1, ![4096]⟩ 32) (p q : Fin 4096) : BitVec 1 :=
  IntOp.cmpi .eq (t (ix1 p)) (t (ix1 q))

/-- A positive pair's distance: the distance where the labels agree, else the low floor (the word is −1e30). -/
def ap (x : FVec Ideal ⟨2, ![4096, 2048]⟩ .f32) (t : IVec ⟨1, ![4096]⟩ 32) (p q : Fin 4096) : EReal :=
  Scalar.select (same t p q) (dist x p q) (Ideal.ofBits .f32 0xF149F2CA#32)

/-- A negative pair's distance: the high ceiling where the labels agree (the word is 1e30), else the distance. -/
def an (x : FVec Ideal ⟨2, ![4096, 2048]⟩ .f32) (t : IVec ⟨1, ![4096]⟩ 32) (p q : Fin 4096) : EReal :=
  Scalar.select (same t p q) (Ideal.ofBits .f32 0x7149F2CA#32) (dist x p q)

/-- The hardest positive of row `p`: the supremum over `q` of the positive pairs' distances. -/
def rowMaxRef (x : FVec Ideal ⟨2, ![4096, 2048]⟩ .f32) (t : IVec ⟨1, ![4096]⟩ 32) (p : Fin 4096) : EReal :=
  Finset.univ.sup fun q : Fin 4096 => ap x t p q

/-- The hardest negative of row `p`: the infimum over `q` of the negative pairs' distances. -/
def rowMinRef (x : FVec Ideal ⟨2, ![4096, 2048]⟩ .f32) (t : IVec ⟨1, ![4096]⟩ 32) (p : Fin 4096) : EReal :=
  Finset.univ.inf fun q : Fin 4096 => an x t p q

/-- Row `p`'s margin loss (the words are 0.3 and 0.0). -/
def loss (x : FVec Ideal ⟨2, ![4096, 2048]⟩ .f32) (t : IVec ⟨1, ![4096]⟩ 32) (p : Fin 4096) : EReal :=
  max (rowMaxRef x t p - rowMinRef x t p + Ideal.ofBits .f32 0x3E99999A#32) (Ideal.ofBits .f32 0x00000000#32)

/-- The mean of the rows' losses: the sum from the zero word, divided by the word of 4096.0. -/
def G (x : FVec Ideal ⟨2, ![4096, 2048]⟩ .f32) (t : IVec ⟨1, ![4096]⟩ 32) : EReal :=
  Ideal.div (Ideal.ofBits .f32 0x00000000#32 + ∑ p : Fin 4096, loss x t p) (Ideal.ofBits .f32 0x45800000#32)

/-! ## The label test as a proposition -/

/-- The one-bit word is 1 exactly when the two labels are equal. -/
theorem same_eq_one_iff (t : IVec ⟨1, ![4096]⟩ 32) (p q : Fin 4096) :
    same t p q = 1#1 ↔ t (ix1 p) = t (ix1 q) := by
  unfold same IntOp.cmpi
  by_cases h : t (ix1 p) = t (ix1 q)
  · simp [h]
  · have hb : (t (ix1 p) == t (ix1 q)) = false := by simpa using h
    simp [hb, h]

/-- A row carries its own label. -/
theorem same_self (t : IVec ⟨1, ![4096]⟩ 32) (p : Fin 4096) : same t p p = 1#1 :=
  (same_eq_one_iff t p p).2 rfl

/-- The positive pair's distance as an `if` on the labels. -/
theorem ap_eq_ite (x : FVec Ideal ⟨2, ![4096, 2048]⟩ .f32) (t : IVec ⟨1, ![4096]⟩ 32) (p q : Fin 4096) :
    ap x t p q = if t (ix1 p) = t (ix1 q) then dist x p q else Ideal.ofBits .f32 0xF149F2CA#32 := by
  unfold ap
  by_cases h : t (ix1 p) = t (ix1 q)
  · rw [(same_eq_one_iff t p q).2 h, select_one, if_pos h]
  · rw [eq_zero_of_ne_one (fun e => h ((same_eq_one_iff t p q).1 e)), select_zero, if_neg h]

/-- The negative pair's distance as an `if` on the labels. -/
theorem an_eq_ite (x : FVec Ideal ⟨2, ![4096, 2048]⟩ .f32) (t : IVec ⟨1, ![4096]⟩ 32) (p q : Fin 4096) :
    an x t p q = if t (ix1 p) = t (ix1 q) then Ideal.ofBits .f32 0x7149F2CA#32 else dist x p q := by
  unfold an
  by_cases h : t (ix1 p) = t (ix1 q)
  · rw [(same_eq_one_iff t p q).2 h, select_one, if_pos h]
  · rw [eq_zero_of_ne_one (fun e => h ((same_eq_one_iff t p q).1 e)), select_zero, if_neg h]

end Cert.TriHard

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibRowMin.lean ====
/-
  The smallest entry of each row of a matrix, read at an index — general in the extents.

  Over the extended reals the minimum of an `n × m` matrix along its second axis reads, at `p`, the fold of `min`, from the
  accumulator's value, over the entries `(p, k)` of row `p`: `min` is commutative and associative, so the order in which the
  row is folded does not matter.
-/
import Idealize.ShloMosaic.Lib.ValueIdx
import Idealize.ShloMosaic.PureOps.Ideal.Laws

noncomputable section

namespace Cert.LibRowMin

open Idealize.ShloMosaic Idealize.ShloMosaic.ValueIdx

/-- Over the extended reals a minimum along ONE axis reads, at a reduced index, the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single (FloatOps.minimumf (F := Ideal) (φ := φ)) (FloatOps.ofBits φ acc) src j

/-- Over the extended reals the minimum of an `n × m` matrix along its second axis reads, at `p`, the fold of `min` from the
    accumulator's value over `k` of the entries `(p, k)`. -/
theorem rowMin_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin m)).fold min (Ideal.ofBits φ acc) (fun k : Fin m => src (ix2 p k)) := by
  refine (multiReduction_minimumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold min (Ideal.ofBits φ acc) f (Finset.univ : Finset (Fin m))) hf

end Cert.LibRowMin

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.TriPay.lean ====
/-
  The kernel's arithmetic read at an index, over the extended reals.

  Each payload of the kernel body is a pure function of the vectors loaded before it. Read at one index built from
  coordinates: the distance tile is `(a + b) − 2·∑ₖ u(r,k)·w(l,k)` (a column and a row broadcast over the tile, the matrix
  product into a zero accumulator contracting both operands' second axis); the label tile compares a column with a row;
  the two masked tiles select between the distance and a constant; the running maximum / minimum takes `max` / `min` of the
  stored value with the fold of `max` / `min`, from the word of −∞ / +∞, over the tile's row; the two initial values are
  constants; the final value is `max (a − b + margin) 0`.
-/
import proofs.«130512_j6657199309074_2_alg».proof.Proof.Gen.KernelIdeal.Skeleton
import proofs.«130512_j6657199309074_2_alg».proof.Proof.LibRowMax
import proofs.«130512_j6657199309074_2_alg».proof.Proof.LibRowMin
import proofs.«130512_j6657199309074_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TriHard.Pay

open Cert.KernelIdeal Cert.KernelIdeal.Gen Idealize.ShloMosaic Idealize.ShloMosaic.ValueIdx

/-- The first stored value is the loaded one: a cast to the same shape. -/
theorem pay1_eq (v35 : FVec Ideal S256x1 .f32) : k0_pay1 (F := Ideal) v35 = v35 := by
  unfold k0_pay1
  exact shapeCast_self _ _

/-- The running maximum's initial value is the low floor everywhere. -/
theorem pay4_apply (r : Fin 256) (z : Fin 1) : k0_pay4 (F := Ideal) (ix2 r z) = Ideal.ofBits .f32 0xF149F2CA#32 := by
  unfold k0_pay4
  rw [shapeCast_self]
  rfl

/-- The running minimum's initial value is the high ceiling everywhere. -/
theorem pay5_apply (r : Fin 256) (z : Fin 1) : k0_pay5 (F := Ideal) (ix2 r z) = Ideal.ofBits .f32 0x7149F2CA#32 := by
  unfold k0_pay5
  rw [shapeCast_self]
  rfl

/-- The final value: the margin loss of the two stored extremes. -/
theorem pay3_apply (v49 v50 : Vec Ideal S256x1 .f32) (r : Fin 256) (z : Fin 1) :
    k0_pay3 (F := Ideal) v49 v50 (ix2 r z)
      = max (v49 (ix2 r z) - v50 (ix2 r z) + Ideal.ofBits .f32 0x3E99999A#32) (Ideal.ofBits .f32 0x00000000#32) := by
  unfold k0_pay3
  rfl

/-- The label tile: the column's label at `r` compared with the row's label at `l`. -/
theorem pay7_apply (v21 : Vec Ideal S256x1 .i32) (v23 : Vec Ideal S1x512 .i32) (r : Fin 256) (l : Fin 512) :
    k0_pay7 (F := Ideal) v21 v23 (ix2 r l) = IntOp.cmpi .eq (v21 (ix2 r 0)) (v23 (ix2 0 l)) := by
  unfold k0_pay7
  rw [shapeCast_self, shapeCast_self]
  exact congr (congrArg (IntOp.cmpi .eq) (Cert.LibColumns.broadcastTo_a1_ab_apply v21 _ r l))
    (broadcastTo_1b_ab_apply v23 _ r l)

/-- The product's left operand index keeps the output's row on its first axis. -/
theorem lhs_0 (j : S256x512.Idx) (q : dot_S256x2048_S512x2048_S256x512_1_1_0_0_n_n.contr.Idx) :
    (dot_S256x2048_S512x2048_S256x512_1_1_0_0_n_n.lhsIdx j q 0).val = (j 0).val := by
  unfold DotDims.lhsIdx
  rw [dif_neg (show ¬(0 : Fin S256x2048.rank) ∈ dot_S256x2048_S512x2048_S256x512_1_1_0_0_n_n.lhsBatch by decide),
    dif_pos (show (0 : Fin S256x2048.rank) ∈ dot_S256x2048_S512x2048_S256x512_1_1_0_0_n_n.lhsNonContracting by decide)]
  rfl

/-- The product's right operand index keeps the output's column on its first axis. -/
theorem rhs_0 (j : S256x512.Idx) (q : dot_S256x2048_S512x2048_S256x512_1_1_0_0_n_n.contr.Idx) :
    (dot_S256x2048_S512x2048_S256x512_1_1_0_0_n_n.rhsIdx j q 0).val = (j 1).val := by
  unfold DotDims.rhsIdx
  rw [dif_neg (show ¬(0 : Fin S512x2048.rank) ∈ dot_S256x2048_S512x2048_S256x512_1_1_0_0_n_n.rhsBatch by decide),
    dif_pos (show (0 : Fin S512x2048.rank) ∈ dot_S256x2048_S512x2048_S256x512_1_1_0_0_n_n.rhsNonContracting by decide)]
  rfl

/-- The matrix product of the row tile with the column tile, both contracting their second axis, into the zero
    accumulator: at `(r, l)` the sum over `k` of the products of the two rows' entries. -/
theorem matmul_apply_rl (v3 : FVec Ideal S256x2048 .bf16) (v8 : FVec Ideal S512x2048 .bf16) (r : Fin 256) (l : Fin 512) :
    matmul dot_S256x2048_S512x2048_S256x512_1_1_0_0_n_n none v3 v8 (constant S256x512 .f32 0x00000000#32) (ix2 r l)
      = ∑ k : Fin 2048, v3 (ix2 r k) * v8 (ix2 l k) := by
  refine (Ideal.matmul_constant_zero_apply dot_S256x2048_S512x2048_S256x512_1_1_0_0_n_n none v3 v8 (ix2 r l)).trans ?_
  rw [← Equiv.sum_comp (ValueIdx.contrEquiv1 dot_S256x2048_S512x2048_S256x512_1_1_0_0_n_n 2048 rfl rfl).symm]
  refine Finset.sum_congr rfl fun k _ => ?_
  have hk := ValueIdx.contrEquiv1_symm_val dot_S256x2048_S512x2048_S256x512_1_1_0_0_n_n 2048 rfl rfl k
  have el : dot_S256x2048_S512x2048_S256x512_1_1_0_0_n_n.lhsIdx (ix2 r l)
      ((ValueIdx.contrEquiv1 dot_S256x2048_S512x2048_S256x512_1_1_0_0_n_n 2048 rfl rfl).symm k) = ix2 r k :=
    funext fun a => Fin.ext (by
      match a with
      | ⟨0, _⟩ => exact lhs_0 _ _
      | ⟨1, _⟩ => exact (dot_S256x2048_S512x2048_S256x512_1_1_0_0_n_n.lhsIdx_val_of_single rfl _ _).trans hk)
  have er : dot_S256x2048_S512x2048_S256x512_1_1_0_0_n_n.rhsIdx (ix2 r l)
      ((ValueIdx.contrEquiv1 dot_S256x2048_S512x2048_S256x512_1_1_0_0_n_n 2048 rfl rfl).symm k) = ix2 l k :=
    funext fun a => Fin.ext (by
      match a with
      | ⟨0, _⟩ => exact rhs_0 _ _
      | ⟨1, _⟩ => exact (dot_S256x2048_S512x2048_S256x512_1_1_0_0_n_n.rhsIdx_val_of_single rfl _ _).trans hk)
  rw [el, er]

/-- The distance tile at `(r, l)`: the column's entry at `r` plus the row's entry at `l`, minus twice the inner product of
    row `r` of the first operand with row `l` of the second. -/
theorem pay6_apply (v3 : Vec Ideal S256x2048 .bf16) (v8 : Vec Ideal S512x2048 .bf16) (v11 : Vec Ideal S256x1 .f32)
    (v13 : Vec Ideal S1x512 .f32) (r : Fin 256) (l : Fin 512) :
    k0_pay6 (F := Ideal) v3 v8 v11 v13 (ix2 r l)
      = (v11 (ix2 r 0) + v13 (ix2 0 l)) - Ideal.ofBits .f32 0x40000000#32 * ∑ k : Fin 2048, v3 (ix2 r k) * v8 (ix2 l k) := by
  unfold k0_pay6
  rw [shapeCast_self, shapeCast_self, shapeCast_self, shapeCast_self]
  exact congrArg₂ (· - ·)
    (congrArg₂ (· + ·) (Cert.LibColumns.broadcastTo_a1_ab_apply v11 _ r l) (broadcastTo_1b_ab_apply v13 _ r l))
    (congrArg (Ideal.ofBits .f32 0x40000000#32 * ·) (matmul_apply_rl v3 v8 r l))

/-- The masked tile for the row minimum: the high ceiling where the labels agree, else the distance. -/
theorem pay8_apply (v3 : Vec Ideal S256x2048 .bf16) (v8 : Vec Ideal S512x2048 .bf16) (v11 : Vec Ideal S256x1 .f32)
    (v13 : Vec Ideal S1x512 .f32) (v21 : Vec Ideal S256x1 .i32) (v23 : Vec Ideal S1x512 .i32) (r : Fin 256) (l : Fin 512) :
    k0_pay8 (F := Ideal) v3 v8 v11 v13 v21 v23 (ix2 r l)
      = Scalar.select (k0_pay7 (F := Ideal) v21 v23 (ix2 r l)) (Ideal.ofBits .f32 0x7149F2CA#32)
          (k0_pay6 (F := Ideal) v3 v8 v11 v13 (ix2 r l)) := by
  unfold k0_pay8
  rfl

/-- The running maximum's next value: `max` of the stored value with the fold of `max`, from the word of −∞, over the row
    of the tile masked for the maximum (the distance where the labels agree, else the low floor). -/
theorem pay9_apply (v3 : Vec Ideal S256x2048 .bf16) (v8 : Vec Ideal S512x2048 .bf16) (v11 : Vec Ideal S256x1 .f32)
    (v13 : Vec Ideal S1x512 .f32) (v21 : Vec Ideal S256x1 .i32) (v23 : Vec Ideal S1x512 .i32) (v32 : Vec Ideal S256x1 .f32)
    (r : Fin 256) (z : Fin 1) :
    k0_pay9 (F := Ideal) v3 v8 v11 v13 v21 v23 v32 (ix2 r z)
      = max (v32 (ix2 r z)) ((Finset.univ : Finset (Fin 512)).fold max (Ideal.ofBits .f32 0xFF800000#32) fun l =>
          Scalar.select (k0_pay7 (F := Ideal) v21 v23 (ix2 r l)) (k0_pay6 (F := Ideal) v3 v8 v11 v13 (ix2 r l))
            (Ideal.ofBits .f32 0xF149F2CA#32)) := by
  unfold k0_pay9
  refine congrArg (max (v32 (ix2 r z))) ?_
  refine (Cert.LibColumns.shapeCast_a_a1_apply _ _ r z).trans ?_
  refine (Cert.LibRowMax.rowMax_apply _ _ _ _ _ r).trans ?_
  rfl

/-- The running minimum's next value: `min` of the stored value with the fold of `min`, from the word of +∞, over the row
    of the tile masked for the minimum. -/
theorem pay2_apply (v31 : FVec Ideal S256x512 .f32) (v39 : Vec Ideal S256x1 .f32) (r : Fin 256) (z : Fin 1) :
    k0_pay2 (F := Ideal) v31 v39 (ix2 r z)
      = min (v39 (ix2 r z)) ((Finset.univ : Finset (Fin 512)).fold min (Ideal.ofBits .f32 0x7F800000#32) fun l =>
          v31 (ix2 r l)) := by
  unfold k0_pay2
  rw [shapeCast_self]
  refine congrArg (min (v39 (ix2 r z))) ?_
  refine (Cert.LibColumns.shapeCast_a_a1_apply _ _ r z).trans ?_
  exact Cert.LibRowMin.rowMin_apply _ _ _ _ _ r

end Cert.TriHard.Pay

end
-- ==== Proof.TriBlocksAt.lean ====
/-
  Each input block of the region at a grid point, and the column tile, read at an index back to the program's two
  arguments.

  Before the region the host forms, from the matrix `x` and the labels `t`: the matrix in the narrower format (over the
  extended reals a change of format is the identity, so it is `x`), the rows' squared norms `0 + ∑ₖ x(p,k)²` as a column
  and as a row, and the labels as a column and as a row. Grid point `t` is row tile `t / 8` (256 rows) and column tile
  `t % 8` (512 columns); an element of a block sits in its array, on each axis, at the block index times the block size
  plus its own coordinate. So at point `t` the row tile's entry `(r, k)` is `x(256·(t/8) + r, k)`, the column tile's
  entry `(l, k)` is `x(512·(t%8) + l, k)`, the two norm blocks hold the squared norms of those rows and the two label
  blocks their labels. With the body's arithmetic read at an index, the distance tile holds the specification's squared
  distances and the label tile its label tests.
-/
import proofs.«130512_j6657199309074_2_alg».proof.Proof.TriValue
import proofs.«130512_j6657199309074_2_alg».proof.Proof.TriSpec
import proofs.«130512_j6657199309074_2_alg».proof.Proof.TriPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Tri

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ)

/-- The matrix argument as the launch memory holds it. -/
abbrev xA (c : Dev nD) : FVec Ideal S4096x2048 .f32 := m ((c : Thread nD τ).loc main_arg0)
/-- The label argument as the launch memory holds it. -/
abbrev tA (c : Dev nD) : IVec S4096 32 := m ((c : Thread nD τ).loc main_arg1)

/-- The matrix in the narrower format is the matrix: over the extended reals a change of format is the identity. -/
theorem V_v2 (c : Dev nD) : (V m c main_v2 : S4096x2048.Idx → EReal) = xA m c := by
  show StableHlo.after hostOps0 (fun b => m (c, b)) (Proc.devRef .tc main_v2) = _
  after_results
  rfl

/-- The labels as a column. -/
theorem V_v0 (c : Dev nD) : (V m c main_v0 : S4096x1.Idx → BitVec 32) = shapeCast S4096x1 (tA m c) shapeCasts_S4096_S4096x1 := by
  show StableHlo.after hostOps0 (fun b => m (c, b)) (Proc.devRef .tc main_v0) = _
  after_results
  rfl

/-- The labels as a row. -/
theorem V_v1 (c : Dev nD) : (V m c main_v1 : S1x4096.Idx → BitVec 32) = shapeCast S1x4096 (tA m c) shapeCasts_S4096_S1x4096 := by
  show StableHlo.after hostOps0 (fun b => m (c, b)) (Proc.devRef .tc main_v1) = _
  after_results
  rfl

/-- The rows' squared norms as a column. -/
theorem V_v5 (c : Dev nD) : (V m c main_v5 : S4096x1.Idx → EReal)
    = shapeCast S4096x1 (Host.reduceAdd (F := Ideal) (mulf (xA m c) (xA m c)) (constant (F := Ideal) S_ .f32 0x00000000#32) reducesTo_S4096x2048_S4096_d1 h_S_) shapeCasts_S4096_S4096x1 := by
  show StableHlo.after hostOps0 (fun b => m (c, b)) (Proc.devRef .tc main_v5) = _
  after_results
  rfl

/-- The rows' squared norms as a row. -/
theorem V_v6 (c : Dev nD) : (V m c main_v6 : S1x4096.Idx → EReal)
    = shapeCast S1x4096 (Host.reduceAdd (F := Ideal) (mulf (xA m c) (xA m c)) (constant (F := Ideal) S_ .f32 0x00000000#32) reducesTo_S4096x2048_S4096_d1 h_S_) shapeCasts_S4096_S1x4096 := by
  show StableHlo.after hostOps0 (fun b => m (c, b)) (Proc.devRef .tc main_v6) = _
  after_results
  rfl

/-! ## The grid's index maps, decided once -/

/-- Point `t` is row tile `t / 8`, column tile `t % 8`. -/
theorem coords_facts : ∀ t : Fin cfg0.N, ((grid0.coords t) 0).val = t.val / 8 ∧ ((grid0.coords t) 1).val = t.val % 8 :=
  (by decide +kernel : ∀ t : Fin grid0.N, _)

/-- Each input window's block index at point `t`. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val % 8 :=
  (by decide +kernel : ∀ t : Fin grid0.N, _)

theorem N_eq : cfg0.N = 128 := N_0

/-- The array row of row `r` of point `t`'s row tile. -/
def rowOf (t : Fin cfg0.N) (r : Fin 256) : Fin 4096 :=
  ⟨256 * (t.val / 8) + r.val, by have := t.isLt; have := N_eq; have := r.isLt; omega⟩
/-- The array row (the distance matrix's column) of entry `l` of point `t`'s column tile. -/
def colOf (t : Fin cfg0.N) (l : Fin 512) : Fin 4096 :=
  ⟨512 * (t.val % 8) + l.val, by have := l.isLt; omega⟩

theorem rowOf_val (t : Fin cfg0.N) (r : Fin 256) : (rowOf t r).val = 256 * (t.val / 8) + r.val := rfl
theorem colOf_val (t : Fin cfg0.N) (l : Fin 512) : (colOf t l).val = 512 * (t.val % 8) + l.val := rfl

/-! ## The blocks read at an index -/

/-- The row tile of the matrix at point `t`: rows `256·(t/8) + r`. -/
theorem blk0_at (c : Dev nD) (t : Fin cfg0.N) (r : Fin 256) (k : Fin 2048) :
    iblk m c 0 t (ix2 r k) = xA m c (ix2 (rowOf t r) k) := by
  show V m c main_v2 (((cfg0.win 0).blk t).view.emb (ix2 r k)) = _
  refine (congrFun (V_v2 m c) _).trans ?_
  refine congrArg (xA m c) (funext fun a => Fin.ext ?_)
  obtain ⟨e0, e1, -⟩ := idx_facts t
  match a with
  | ⟨0, _⟩ => show win0_0.index t (0 : Fin 2) * 256 + 1 * r.val = 256 * (t.val / 8) + r.val; omega
  | ⟨1, _⟩ => show win0_0.index t (1 : Fin 2) * 2048 + 1 * k.val = k.val; omega

/-- The whole resident matrix at point `t`: its block is the array. -/
theorem blk1_at (c : Dev nD) (t : Fin cfg0.N) (j : S4096x2048.Idx) :
    iblk m c 1 t j = xA m c j := by
  show V m c main_v2 (((cfg0.win 1).blk t).view.emb j) = _
  refine (congrFun (V_v2 m c) _).trans ?_
  refine congrArg (xA m c) (funext fun a => Fin.ext ?_)
  obtain ⟨-, -, e0, e1, -⟩ := idx_facts t
  match a with
  | ⟨0, _⟩ => show win0_1.index t (0 : Fin 2) * 4096 + 1 * (j 0).val = (j 0).val; omega
  | ⟨1, _⟩ => show win0_1.index t (1 : Fin 2) * 2048 + 1 * (j 1).val = (j 1).val; omega

/-- The column tile of a matrix `x1` at grid coordinates `i` reads, at `(l, k)`, row `512·i₁ + l` of `x1`. -/
theorem colTile_apply (i : grid0.Coords) (x1 : Vec Ideal S4096x2048 .bf16) (l : Fin 512) (k : Fin 2048) (q : Fin 4096)
    (hq : q.val = 512 * (i 1).val + l.val) : colTile i x1 (ix2 l k) = x1 (ix2 q k) := by
  unfold colTile
  show x1 ((Rect.unit (s := S4096x2048) (k0_off1 i) S512x2048.size (k0_off1_inb i)).idx (ix2 l k)) = _
  refine congrArg x1 (funext fun a => Fin.ext ?_)
  have ho := k0_off1_eq i
  match a with
  | ⟨0, _⟩ =>
    show k0_off1 i 0 + 1 * l.val = q.val
    rw [ho, hq]; show 512 * (i 1).val + 1 * l.val = _; omega
  | ⟨1, _⟩ =>
    show k0_off1 i 1 + 1 * k.val = k.val
    rw [ho]; show 0 + 1 * k.val = _; omega

/-- The column tile at point `t`: rows `512·(t%8) + l` of the matrix. -/
theorem col_at (c : Dev nD) (t : Fin cfg0.N) (l : Fin 512) (k : Fin 2048) :
    colTile (grid0.coords t) (iblk m c 1 t) (ix2 l k) = xA m c (ix2 (colOf t l) k) := by
  refine (colTile_apply (grid0.coords t) (iblk m c 1 t) l k (colOf t l) ?_).trans (blk1_at m c t _)
  rw [colOf_val, (coords_facts t).2]

/-- The reference's and the kernel's row sums of squares are the specification's squared norm. -/
theorem sqv_apply (x : FVec Ideal S4096x2048 .f32) (p : Fin 4096) :
    Host.reduceAdd (F := Ideal) (mulf x x) (constant (F := Ideal) S_ .f32 0x00000000#32) reducesTo_S4096x2048_S4096_d1 h_S_ (ix1 p)
      = Cert.TriHard.sq x p := by
  have h : S4096x2048.Reduces [1] S4096 := by decide
  simp only [Host.reduceAdd, Ideal.hostReduceAdd_def]
  rw [Ideal.hostReduceAdd_single reducesTo_S4096x2048_S4096_d1 h]
  unfold Cert.TriHard.sq
  refine congrArg (_ + ·) (Finset.sum_congr rfl fun (k : Fin 2048) _ => ?_)
  have hi : h.lift (ix1 p) k = ix2 p k :=
    funext fun a => Fin.ext (by match a with | ⟨0, _⟩ => rfl | ⟨1, _⟩ => rfl)
  exact congrArg (fun j => x j * x j) hi

/-- The row tile's squared norms at point `t`. -/
theorem blk2_at (c : Dev nD) (t : Fin cfg0.N) (r : Fin 256) (z : Fin 1) :
    iblk m c 2 t (ix2 r z) = Cert.TriHard.sq (xA m c) (rowOf t r) := by
  show V m c main_v5 (((cfg0.win 2).blk t).view.emb (ix2 r z)) = _
  refine (congrFun (V_v5 m c) _).trans ?_
  obtain ⟨-, -, -, -, e0, e1, -⟩ := idx_facts t
  have he : ((cfg0.win 2).blk t).view.emb (ix2 r z) = ix2 (rowOf t r) (0 : Fin 1) := funext fun a => Fin.ext (by
    match a with
    | ⟨0, _⟩ => show win0_2.index t (0 : Fin 2) * 256 + 1 * r.val = 256 * (t.val / 8) + r.val; omega
    | ⟨1, _⟩ => show win0_2.index t (1 : Fin 2) * 1 + 1 * z.val = 0; have := z.isLt; omega)
  refine (congrArg _ he).trans ?_
  refine (Cert.LibColumns.shapeCast_a_a1_apply _ _ (rowOf t r) 0).trans ?_
  exact sqv_apply (xA m c) (rowOf t r)

/-- The column tile's squared norms at point `t`. -/
theorem blk3_at (c : Dev nD) (t : Fin cfg0.N) (z : Fin 1) (l : Fin 512) :
    iblk m c 3 t (ix2 z l) = Cert.TriHard.sq (xA m c) (colOf t l) := by
  show V m c main_v6 (((cfg0.win 3).blk t).view.emb (ix2 z l)) = _
  refine (congrFun (V_v6 m c) _).trans ?_
  obtain ⟨-, -, -, -, -, -, e0, e1, -⟩ := idx_facts t
  have he : ((cfg0.win 3).blk t).view.emb (ix2 z l) = ix2 (0 : Fin 1) (colOf t l) := funext fun a => Fin.ext (by
    match a with
    | ⟨0, _⟩ => show win0_3.index t (0 : Fin 2) * 1 + 1 * z.val = 0; have := z.isLt; omega
    | ⟨1, _⟩ => show win0_3.index t (1 : Fin 2) * 512 + 1 * l.val = 512 * (t.val % 8) + l.val; omega)
  refine (congrArg _ he).trans ?_
  refine (shapeCast_a_1a_apply _ _ 0 (colOf t l)).trans ?_
  exact sqv_apply (xA m c) (colOf t l)

/-- The row tile's labels at point `t`. -/
theorem blk4_at (c : Dev nD) (t : Fin cfg0.N) (r : Fin 256) (z : Fin 1) :
    iblk m c 4 t (ix2 r z) = tA m c (ix1 (rowOf t r)) := by
  show V m c main_v0 (((cfg0.win 4).blk t).view.emb (ix2 r z)) = _
  refine (congrFun (V_v0 m c) _).trans ?_
  obtain ⟨-, -, -, -, -, -, -, -, e0, e1, -⟩ := idx_facts t
  have he : ((cfg0.win 4).blk t).view.emb (ix2 r z) = ix2 (rowOf t r) (0 : Fin 1) := funext fun a => Fin.ext (by
    match a with
    | ⟨0, _⟩ => show win0_4.index t (0 : Fin 2) * 256 + 1 * r.val = 256 * (t.val / 8) + r.val; omega
    | ⟨1, _⟩ => show win0_4.index t (1 : Fin 2) * 1 + 1 * z.val = 0; have := z.isLt; omega)
  refine (congrArg _ he).trans ?_
  exact Cert.LibColumns.shapeCast_a_a1_apply _ _ (rowOf t r) 0

/-- The column tile's labels at point `t`. -/
theorem blk5_at (c : Dev nD) (t : Fin cfg0.N) (z : Fin 1) (l : Fin 512) :
    iblk m c 5 t (ix2 z l) = tA m c (ix1 (colOf t l)) := by
  show V m c main_v1 (((cfg0.win 5).blk t).view.emb (ix2 z l)) = _
  refine (congrFun (V_v1 m c) _).trans ?_
  obtain ⟨-, -, -, -, -, -, -, -, -, -, e0, e1⟩ := idx_facts t
  have he : ((cfg0.win 5).blk t).view.emb (ix2 z l) = ix2 (0 : Fin 1) (colOf t l) := funext fun a => Fin.ext (by
    match a with
    | ⟨0, _⟩ => show win0_5.index t (0 : Fin 2) * 1 + 1 * z.val = 0; have := z.isLt; omega
    | ⟨1, _⟩ => show win0_5.index t (1 : Fin 2) * 512 + 1 * l.val = 512 * (t.val % 8) + l.val; omega)
  refine (congrArg _ he).trans ?_
  exact shapeCast_a_1a_apply _ _ 0 (colOf t l)

/-! ## The tile's distances and label tests in the specification's terms -/

/-- The distance tile at point `t` holds the specification's squared distances of row `256·(t/8) + r` to row
    `512·(t%8) + l`. -/
theorem tile_dist (c : Dev nD) (t : Fin cfg0.N) (r : Fin 256) (l : Fin 512) :
    k0_pay6 (iblk m c 0 t) (colTile (grid0.coords t) (iblk m c 1 t)) (iblk m c 2 t) (iblk m c 3 t) (ix2 r l)
      = Cert.TriHard.dist (xA m c) (rowOf t r) (colOf t l) := by
  refine (Cert.TriHard.Pay.pay6_apply _ _ _ _ r l).trans ?_
  unfold Cert.TriHard.dist Cert.TriHard.dot
  exact congrArg₂ (· - ·) (congrArg₂ (· + ·) (blk2_at m c t r 0) (blk3_at m c t 0 l))
    (congrArg (Ideal.ofBits .f32 0x40000000#32 * ·)
      (Finset.sum_congr rfl fun k _ => congrArg₂ (· * ·) (blk0_at m c t r k) (col_at m c t l k)))

/-- The label tile at point `t` holds the specification's label tests of those two rows. -/
theorem tile_same (c : Dev nD) (t : Fin cfg0.N) (r : Fin 256) (l : Fin 512) :
    k0_pay7 (iblk m c 4 t) (iblk m c 5 t) (ix2 r l) = Cert.TriHard.same (tA m c) (rowOf t r) (colOf t l) := by
  refine (Cert.TriHard.Pay.pay7_apply _ _ r l).trans ?_
  unfold Cert.TriHard.same
  exact congrArg₂ (IntOp.cmpi .eq) (blk4_at m c t r 0) (blk5_at m c t 0 l)

end Cert.KernelIdeal.Tri

end
-- ==== Proof.TriBlocks.lean ====
/-
  Order theory on the extended reals for a row maximum / minimum taken tile by tile.

  A row of 4096 entries cut into 8 tiles of 512: the supremum of the tiles' suprema is the row's supremum (`sup_tiles`), and
  dually for infima (`inf_tiles`). A floor `c` that some entry reaches does not change the supremum (`floor_absorb`), a
  ceiling that some entry stays under does not change the infimum (`ceil_absorb`). A running maximum that starts at
  `max c (tile 0)` and takes `max` with each next tile ends at `max c` of the supremum of the tiles (`run_max_eq`), and
  dually for a running minimum (`run_min_eq`).
-/
import Mathlib.Data.EReal.Basic
import Mathlib.Data.Finset.Lattice.Fold
import Mathlib.Data.Fintype.Basic
import Mathlib.Order.Fin.Basic

noncomputable section

namespace Cert.TriHard

/-! ## Tiles -/

/-- The supremum over 8 tiles of 512 of the tiles' suprema is the supremum over all 4096 entries, for any way `e` of
    writing entry `512·j + l`. -/
theorem sup_tiles_of (a : Fin 4096 → EReal) (e : Fin 8 → Fin 512 → Fin 4096)
    (he : ∀ j l, (e j l).val = 512 * j.val + l.val) :
    (Finset.univ.sup fun j : Fin 8 => Finset.univ.sup fun l : Fin 512 => a (e j l)) = Finset.univ.sup a := by
  apply le_antisymm
  · exact Finset.sup_le fun j _ => Finset.sup_le fun l _ => Finset.le_sup (Finset.mem_univ (e j l))
  · refine Finset.sup_le fun q _ => ?_
    have hq := q.isLt
    have hj : q.val / 512 < 8 := by omega
    have hl : q.val % 512 < 512 := Nat.mod_lt _ (by norm_num)
    have hqe : q = e ⟨q.val / 512, hj⟩ ⟨q.val % 512, hl⟩ := Fin.ext (by
      rw [he]; exact (Nat.div_add_mod q.val 512).symm)
    calc a q = a (e ⟨q.val / 512, hj⟩ ⟨q.val % 512, hl⟩) := congrArg a hqe
      _ ≤ Finset.univ.sup fun l : Fin 512 => a (e ⟨q.val / 512, hj⟩ l) :=
          Finset.le_sup (f := fun l : Fin 512 => a (e ⟨q.val / 512, hj⟩ l)) (Finset.mem_univ _)
      _ ≤ _ := Finset.le_sup (f := fun j : Fin 8 => Finset.univ.sup fun l : Fin 512 => a (e j l)) (Finset.mem_univ _)

/-- The infimum over 8 tiles of 512 of the tiles' infima is the infimum over all 4096 entries, for any way `e` of
    writing entry `512·j + l`. -/
theorem inf_tiles_of (a : Fin 4096 → EReal) (e : Fin 8 → Fin 512 → Fin 4096)
    (he : ∀ j l, (e j l).val = 512 * j.val + l.val) :
    (Finset.univ.inf fun j : Fin 8 => Finset.univ.inf fun l : Fin 512 => a (e j l)) = Finset.univ.inf a := by
  apply le_antisymm
  · refine Finset.le_inf fun q _ => ?_
    have hq := q.isLt
    have hj : q.val / 512 < 8 := by omega
    have hl : q.val % 512 < 512 := Nat.mod_lt _ (by norm_num)
    have hqe : q = e ⟨q.val / 512, hj⟩ ⟨q.val % 512, hl⟩ := Fin.ext (by
      rw [he]; exact (Nat.div_add_mod q.val 512).symm)
    calc _ ≤ Finset.univ.inf fun l : Fin 512 => a (e ⟨q.val / 512, hj⟩ l) :=
          Finset.inf_le (f := fun j : Fin 8 => Finset.univ.inf fun l : Fin 512 => a (e j l)) (Finset.mem_univ _)
      _ ≤ a (e ⟨q.val / 512, hj⟩ ⟨q.val % 512, hl⟩) :=
          Finset.inf_le (f := fun l : Fin 512 => a (e ⟨q.val / 512, hj⟩ l)) (Finset.mem_univ _)
      _ = a q := (congrArg a hqe).symm
  · exact Finset.le_inf fun j _ => Finset.le_inf fun l _ => Finset.inf_le (Finset.mem_univ (e j l))

/-- Entry `512·j + l` of a row of 4096, for `j` below 8 and `l` below 512. -/
def tileIdx (j : Fin 8) (l : Fin 512) : Fin 4096 :=
  ⟨512 * j.val + l.val, by have := j.isLt; have := l.isLt; omega⟩

theorem tileIdx_val (j : Fin 8) (l : Fin 512) : (tileIdx j l).val = 512 * j.val + l.val := rfl

/-- The supremum of the 8 tiles' suprema is the row's supremum. -/
theorem sup_tiles (a : Fin 4096 → EReal) :
    (Finset.univ.sup fun j : Fin 8 => Finset.univ.sup fun l : Fin 512 => a (tileIdx j l)) = Finset.univ.sup a :=
  sup_tiles_of a tileIdx tileIdx_val

/-- The infimum of the 8 tiles' infima is the row's infimum. -/
theorem inf_tiles (a : Fin 4096 → EReal) :
    (Finset.univ.inf fun j : Fin 8 => Finset.univ.inf fun l : Fin 512 => a (tileIdx j l)) = Finset.univ.inf a :=
  inf_tiles_of a tileIdx tileIdx_val

/-! ## A floor below some entry, a ceiling above some entry -/

/-- A floor that some entry reaches does not change the supremum. -/
theorem floor_absorb {ι : Type*} [Fintype ι] (a : ι → EReal) (c : EReal) (h : ∃ q, c ≤ a q) :
    max c (Finset.univ.sup a) = Finset.univ.sup a := by
  obtain ⟨q, hq⟩ := h
  exact max_eq_right (le_trans hq (Finset.le_sup (Finset.mem_univ q)))

/-- A ceiling that some entry stays under does not change the infimum. -/
theorem ceil_absorb {ι : Type*} [Fintype ι] (a : ι → EReal) (c : EReal) (h : ∃ q, a q ≤ c) :
    min c (Finset.univ.inf a) = Finset.univ.inf a := by
  obtain ⟨q, hq⟩ := h
  exact min_eq_right (le_trans (Finset.inf_le (Finset.mem_univ q)) hq)

/-! ## A running maximum / minimum over the tiles -/

/-- The supremum over the first `n + 1` naturals adds the term at `n`. -/
theorem sup_range_add_one (f : ℕ → EReal) (n : ℕ) :
    (Finset.range (n + 1)).sup f = max ((Finset.range n).sup f) (f n) := by
  rw [Finset.range_add_one, Finset.sup_insert]; exact max_comm _ _

/-- The infimum over the first `n + 1` naturals adds the term at `n`. -/
theorem inf_range_add_one (f : ℕ → EReal) (n : ℕ) :
    (Finset.range (n + 1)).inf f = min ((Finset.range n).inf f) (f n) := by
  rw [Finset.range_add_one, Finset.inf_insert]; exact min_comm _ _

/-- A running maximum over a sequence: from `max c (tile 0)`, taking `max` with each next term, after `n` steps it is
    `max c` of the supremum of the first `n + 1` terms. -/
theorem run_max_range (c : EReal) (tile r : ℕ → EReal) (h0 : r 0 = max c (tile 0)) (n : ℕ)
    (hs : ∀ j, j < n → r (j + 1) = max (r j) (tile (j + 1))) :
    r n = max c ((Finset.range (n + 1)).sup tile) := by
  induction n with
  | zero => rw [h0, sup_range_add_one tile 0, Finset.range_zero, Finset.sup_empty, max_eq_right bot_le]
  | succ n ih =>
    rw [hs n (Nat.lt_succ_self n), ih (fun j hj => hs j (Nat.lt_succ_of_lt hj)), sup_range_add_one tile (n + 1)]
    exact max_assoc _ _ _

/-- A running minimum over a sequence: from `min c (tile 0)`, taking `min` with each next term, after `n` steps it is
    `min c` of the infimum of the first `n + 1` terms. -/
theorem run_min_range (c : EReal) (tile r : ℕ → EReal) (h0 : r 0 = min c (tile 0)) (n : ℕ)
    (hs : ∀ j, j < n → r (j + 1) = min (r j) (tile (j + 1))) :
    r n = min c ((Finset.range (n + 1)).inf tile) := by
  induction n with
  | zero => rw [h0, inf_range_add_one tile 0, Finset.range_zero, Finset.inf_empty, min_eq_right le_top]
  | succ n ih =>
    rw [hs n (Nat.lt_succ_self n), ih (fun j hj => hs j (Nat.lt_succ_of_lt hj)), inf_range_add_one tile (n + 1)]
    exact min_assoc _ _ _

/-- A finite family of tiles as a sequence: `⊥` past its end. -/
def extBot {m : ℕ} (tile : Fin m → EReal) (k : ℕ) : EReal := if hk : k < m then tile ⟨k, hk⟩ else ⊥
theorem extBot_val {m : ℕ} (tile : Fin m → EReal) (i : Fin m) : extBot tile i.val = tile i := dif_pos i.isLt

/-- A finite family of tiles as a sequence: `⊤` past its end. -/
def extTop {m : ℕ} (tile : Fin m → EReal) (k : ℕ) : EReal := if hk : k < m then tile ⟨k, hk⟩ else ⊤
theorem extTop_val {m : ℕ} (tile : Fin m → EReal) (i : Fin m) : extTop tile i.val = tile i := dif_pos i.isLt

/-- A supremum over the first `m` naturals of a sequence that extends `tile` is the supremum of `tile`. -/
theorem sup_range_eq_sup_univ (m : ℕ) (tile : Fin m → EReal) (tile' : ℕ → EReal) (h : ∀ i : Fin m, tile' i.val = tile i) :
    (Finset.range m).sup tile' = Finset.univ.sup tile := by
  apply le_antisymm
  · refine Finset.sup_le fun k hk => ?_
    have hk' : k < m := Finset.mem_range.1 hk
    have := h ⟨k, hk'⟩
    simp only at this
    rw [this]
    exact Finset.le_sup (Finset.mem_univ _)
  · refine Finset.sup_le fun i _ => ?_
    rw [← h i]
    exact Finset.le_sup (Finset.mem_range.2 i.isLt)

/-- An infimum over the first `m` naturals of a sequence that extends `tile` is the infimum of `tile`. -/
theorem inf_range_eq_inf_univ (m : ℕ) (tile : Fin m → EReal) (tile' : ℕ → EReal) (h : ∀ i : Fin m, tile' i.val = tile i) :
    (Finset.range m).inf tile' = Finset.univ.inf tile := by
  apply le_antisymm
  · refine Finset.le_inf fun i _ => ?_
    rw [← h i]
    exact Finset.inf_le (Finset.mem_range.2 i.isLt)
  · refine Finset.le_inf fun k hk => ?_
    have hk' : k < m := Finset.mem_range.1 hk
    have := h ⟨k, hk'⟩
    simp only at this
    rw [this]
    exact Finset.inf_le (Finset.mem_univ _)

/-- A running maximum over `n + 1` tiles: from `max c (tile 0)`, taking `max` with each next tile, it ends at `max c` of
    the supremum of the tiles. -/
theorem run_max_eq_gen (n : ℕ) (c : EReal) (tile : Fin (n + 1) → EReal) (r : ℕ → EReal) (h0 : r 0 = max c (tile 0))
    (hs : ∀ j (hj : j + 1 < n + 1), r (j + 1) = max (r j) (tile ⟨j + 1, hj⟩)) :
    r n = max c (Finset.univ.sup tile) := by
  rw [← sup_range_eq_sup_univ (n + 1) tile (extBot tile) (extBot_val tile)]
  refine run_max_range c (extBot tile) r ?_ n fun j hj => ?_
  · rw [h0]; exact congrArg (max c) (extBot_val tile 0).symm
  · have hj' : j + 1 < n + 1 := Nat.succ_lt_succ hj
    rw [hs j hj']; exact congrArg (max (r j)) (extBot_val tile ⟨j + 1, hj'⟩).symm

/-- A running minimum over `n + 1` tiles: from `min c (tile 0)`, taking `min` with each next tile, it ends at `min c` of
    the infimum of the tiles. -/
theorem run_min_eq_gen (n : ℕ) (c : EReal) (tile : Fin (n + 1) → EReal) (r : ℕ → EReal) (h0 : r 0 = min c (tile 0))
    (hs : ∀ j (hj : j + 1 < n + 1), r (j + 1) = min (r j) (tile ⟨j + 1, hj⟩)) :
    r n = min c (Finset.univ.inf tile) := by
  rw [← inf_range_eq_inf_univ (n + 1) tile (extTop tile) (extTop_val tile)]
  refine run_min_range c (extTop tile) r ?_ n fun j hj => ?_
  · rw [h0]; exact congrArg (min c) (extTop_val tile 0).symm
  · have hj' : j + 1 < n + 1 := Nat.succ_lt_succ hj
    rw [hs j hj']; exact congrArg (min (r j)) (extTop_val tile ⟨j + 1, hj'⟩).symm

/-- The running maximum over the 8 tiles ends at `max c` of the supremum of the tiles. -/
theorem run_max_eq (c : EReal) (tile : Fin 8 → EReal) (r : ℕ → EReal) (h0 : r 0 = max c (tile 0))
    (hs : ∀ j (hj : j + 1 < 8), r (j + 1) = max (r j) (tile ⟨j + 1, hj⟩)) :
    r 7 = max c (Finset.univ.sup tile) :=
  run_max_eq_gen 7 c tile r h0 hs

/-- The running minimum over the 8 tiles ends at `min c` of the infimum of the tiles. -/
theorem run_min_eq (c : EReal) (tile : Fin 8 → EReal) (r : ℕ → EReal) (h0 : r 0 = min c (tile 0))
    (hs : ∀ j (hj : j + 1 < 8), r (j + 1) = min (r j) (tile ⟨j + 1, hj⟩)) :
    r 7 = min c (Finset.univ.inf tile) :=
  run_min_eq_gen 7 c tile r h0 hs

end Cert.TriHard

end
-- ==== Proof.TriDiag.lean ====
/-
  The diagonal of the distance matrix, and why a finite floor / ceiling on the row maximum / minimum changes nothing.

  A row carries its own label, so on the diagonal the negative pair's distance is the high ceiling exactly (`an_diag`) and
  the positive pair's distance is the squared distance of a row to itself (`ap_diag`). When every entry of `x` is a real
  number that distance is `(s + s) − 2·s = 0` for the real `s = ∑ₖ x(p,k)²` (`dist_diag`); on the extended reals this
  needs the entries finite, since `⊤ − ⊤ = ⊥`. The low floor is a negative real (`floor_le_zero`). So a running maximum
  that starts at the low floor ends at the row's supremum (`kernelRowMax_eq`) and a running minimum that starts at the high
  ceiling ends at the row's infimum (`kernelRowMin_eq`).
-/
import proofs.«130512_j6657199309074_2_alg».proof.Proof.TriSpec
import proofs.«130512_j6657199309074_2_alg».proof.Proof.TriBlocks

noncomputable section

open scoped BigOperators

namespace Cert.TriHard

open Idealize.ShloMosaic Idealize.ShloMosaic.ValueIdx

/-! ## Sums of reals inside the extended reals -/

/-- The coercion of the reals into the extended reals commutes with finite sums. -/
theorem coe_finset_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-! ## Two words -/

/-- The word of 2.0 denotes the real 2. -/
theorem ofBits_two : Ideal.ofBits .f32 0x40000000#32 = ((2 : ℝ) : EReal) := by
  simp [Ideal.ofBits, Ideal.ieee, -EReal.coe_mul]; norm_num

/-- The low floor (the word of −1e30) is a negative real: it is at most 0. -/
theorem floor_le_zero : Ideal.ofBits .f32 0xF149F2CA#32 ≤ (0 : EReal) := by
  simp [Ideal.ofBits, Ideal.ieee, -EReal.coe_mul]

/-! ## The diagonal -/

/-- On the diagonal the negative pair's distance is the high ceiling. -/
theorem an_diag (x : FVec Ideal ⟨2, ![4096, 2048]⟩ .f32) (t : IVec ⟨1, ![4096]⟩ 32) (p : Fin 4096) :
    an x t p p = Ideal.ofBits .f32 0x7149F2CA#32 := by
  unfold an; rw [same_self, select_one]

/-- On the diagonal the positive pair's distance is the distance of the row to itself. -/
theorem ap_diag (x : FVec Ideal ⟨2, ![4096, 2048]⟩ .f32) (t : IVec ⟨1, ![4096]⟩ 32) (p : Fin 4096) :
    ap x t p p = dist x p p := by
  unfold ap; rw [same_self, select_one]

/-- When every entry is a real number, the squared distance of a row to itself is 0. -/
theorem dist_diag (x : FVec Ideal ⟨2, ![4096, 2048]⟩ .f32) (hx : ∀ i, ∃ r : ℝ, x i = (r : EReal)) (p : Fin 4096) :
    dist x p p = 0 := by
  choose f hf using hx
  have hdot : dot x p p = ((∑ k : Fin 2048, f (ix2 p k) * f (ix2 p k) : ℝ) : EReal) := by
    unfold dot
    rw [← coe_finset_sum]
    exact Finset.sum_congr rfl fun k _ => by rw [hf, EReal.coe_mul]
  have hsq : sq x p = ((∑ k : Fin 2048, f (ix2 p k) * f (ix2 p k) : ℝ) : EReal) := by
    unfold sq
    rw [Ideal.ofBits_zero_f32, zero_add]
    exact hdot
  unfold dist
  rw [hsq, hdot, ofBits_two, ← EReal.coe_add, ← EReal.coe_mul, ← EReal.coe_sub, ← EReal.coe_zero]
  congr 1
  ring

/-! ## The floor and the ceiling change nothing -/

/-- With finite entries, the maximum of the low floor and the row's supremum of positive distances is that supremum:
    the diagonal entry is 0, above the floor. -/
theorem kernelRowMax_eq (x : FVec Ideal ⟨2, ![4096, 2048]⟩ .f32) (t : IVec ⟨1, ![4096]⟩ 32)
    (hx : ∀ i, ∃ r : ℝ, x i = (r : EReal)) (p : Fin 4096) :
    max (Ideal.ofBits .f32 0xF149F2CA#32) (Finset.univ.sup fun q : Fin 4096 => ap x t p q) = rowMaxRef x t p := by
  unfold rowMaxRef
  refine floor_absorb (fun q : Fin 4096 => ap x t p q) _ ⟨p, ?_⟩
  show Ideal.ofBits .f32 0xF149F2CA#32 ≤ ap x t p p
  rw [ap_diag, dist_diag x hx p]
  exact floor_le_zero

/-- The minimum of the high ceiling and the row's infimum of negative distances is that infimum: the diagonal entry is
    the ceiling itself. -/
theorem kernelRowMin_eq (x : FVec Ideal ⟨2, ![4096, 2048]⟩ .f32) (t : IVec ⟨1, ![4096]⟩ 32) (p : Fin 4096) :
    min (Ideal.ofBits .f32 0x7149F2CA#32) (Finset.univ.inf fun q : Fin 4096 => an x t p q) = rowMinRef x t p := by
  unfold rowMinRef
  refine ceil_absorb (fun q : Fin 4096 => an x t p q) _ ⟨p, ?_⟩
  show an x t p p ≤ Ideal.ofBits .f32 0x7149F2CA#32
  rw [an_diag]

end Cert.TriHard

end
-- ==== Proof.TriFold.lean ====
/-
  One row's running maximum and minimum over the eight column tiles are the row's masked maximum and minimum
  over all 4096 columns.

  A column tile's update takes the larger of the accumulator and the supremum, over the tile's 512 columns q, of
  the masked distance of row p to q (the smaller, and the infimum, for the minimum). Starting from the finite
  floor and folding the eight tiles gives the larger of the floor and the supremum over all columns; the diagonal
  column q = p is always of p's own class and its distance is zero for real-valued inputs, so the floor is
  absorbed (and the ceiling, by the diagonal's masked value being the ceiling itself). The rows' margin losses
  formed from the two are then the reference's.
-/
import proofs.«130512_j6657199309074_2_alg».proof.Proof.TriAcc
import proofs.«130512_j6657199309074_2_alg».proof.Proof.TriBlocksAt
import proofs.«130512_j6657199309074_2_alg».proof.Proof.TriPay
import proofs.«130512_j6657199309074_2_alg».proof.Proof.TriDiag

set_option maxRecDepth 16384

noncomputable section

namespace Cert.KernelIdeal.Tri

open Cert.KernelIdeal Cert.KernelIdeal.Gen
open Idealize.ShloMosaic Idealize.ShloMosaic.TcCoe Idealize.ShloMosaic.ValueIdx
open Idealize.SL.Sem
open Cert.TriHard Cert.TriHard.Pay

variable (m : (ℓ : Loc nD τ sig) → Buf (Elt Ideal) ℓ)

/-- One column tile's update of the running maximum, at a row: the larger of the accumulator's entry and the
    supremum over the tile's columns of the row's masked distances. -/
theorem updMax_at (c : Dev nD) (t : Fin cfg0.N) (a : Vec Ideal S256x1 .f32) (r : Fin 256) (z : Fin 1) :
    updMax m c t a (ix2 r z)
      = max (a (ix2 r z)) (Finset.univ.sup fun l : Fin 512 => ap (xA m c) (tA m c) (rowOf t r) (colOf t l)) := by
  unfold updMax
  rw [pay1_eq]
  refine (pay9_apply _ _ _ _ _ _ a r z).trans ?_
  rw [ofBits_neg_inf, fold_max_bot]
  refine congrArg (max (a (ix2 r z))) (congrArg (Finset.univ.sup) (funext fun l => ?_))
  rw [tile_same m c t r l, tile_dist m c t r l]
  rfl

/-- One column tile's update of the running minimum, at a row. -/
theorem updMin_at (c : Dev nD) (t : Fin cfg0.N) (a : Vec Ideal S256x1 .f32) (r : Fin 256) (z : Fin 1) :
    updMin m c t a (ix2 r z)
      = min (a (ix2 r z)) (Finset.univ.inf fun l : Fin 512 => an (xA m c) (tA m c) (rowOf t r) (colOf t l)) := by
  unfold updMin
  refine (pay2_apply _ a r z).trans ?_
  rw [ofBits_pos_inf, fold_min_top]
  refine congrArg (min (a (ix2 r z))) (congrArg (Finset.univ.inf) (funext fun l => ?_))
  rw [pay8_apply, tile_same m c t r l, tile_dist m c t r l]
  rfl

/-- Row `rr` of row tile `i`. -/
def rowIn (i : ℕ) (hi : i < 16) (rr : Fin 256) : Fin 4096 := ⟨256 * i + rr.val, by have := rr.isLt; omega⟩

theorem rowOf_eq (i j : ℕ) (hi : i < 16) (hj : j < 8) (h : 8 * i + j < cfg0.N) (rr : Fin 256) :
    rowOf ⟨8 * i + j, h⟩ rr = rowIn i hi rr := Fin.ext (by rw [rowOf_val]; show 256 * ((8 * i + j) / 8) + rr.val = 256 * i + rr.val; omega)
theorem colOf_eq (i j : ℕ) (hj : j < 8) (h : 8 * i + j < cfg0.N) (l : Fin 512) :
    colOf ⟨8 * i + j, h⟩ l = tileIdx ⟨j, hj⟩ l := Fin.ext (by rw [colOf_val, tileIdx_val]; show 512 * ((8 * i + j) % 8) + l.val = 512 * j + l.val; omega)

/-- The running maximum of row `rr` of row tile `i` after column tile `j` (zero past the grid: never read). -/
def runMax (c : Dev nD) (i : ℕ) (rr : Fin 256) (z : Fin 1) (j : ℕ) : EReal :=
  if h : 8 * i + j < cfg0.N then accMax m c (8 * i + j) h (ix2 rr z) else 0
def runMin (c : Dev nD) (i : ℕ) (rr : Fin 256) (z : Fin 1) (j : ℕ) : EReal :=
  if h : 8 * i + j < cfg0.N then accMin m c (8 * i + j) h (ix2 rr z) else 0

theorem inGrid (i j : ℕ) (hi : i < 16) (hj : j < 8) : 8 * i + j < cfg0.N := by rw [N_eq]; omega

/-- After the eight column tiles the running maximum of a row is the row's masked maximum over all columns: for
    real-valued inputs the finite floor is absorbed by the diagonal's zero distance. -/
theorem rowMax_done (c : Dev nD) (hx : ∀ i, ∃ v : ℝ, xA m c i = (v : EReal)) (i : ℕ) (hi : i < 16) (rr : Fin 256) (z : Fin 1) :
    accMax m c (8 * i + 7) (inGrid i 7 hi (by decide)) (ix2 rr z) = rowMaxRef (xA m c) (tA m c) (rowIn i hi rr) := by
  have key := run_max_eq (Ideal.ofBits .f32 0xF149F2CA#32)
    (fun jj : Fin 8 => Finset.univ.sup fun l : Fin 512 => ap (xA m c) (tA m c) (rowIn i hi rr) (tileIdx jj l))
    (runMax m c i rr z)
    (by
      unfold runMax
      rw [dif_pos (inGrid i 0 hi (by decide)), accMax_of_first m c (8 * i + 0) _ (by omega), updMax_at, pay4_apply]
      refine congrArg _ (congrArg _ (funext fun l => ?_))
      rw [rowOf_eq i 0 hi (by decide), colOf_eq i 0 (by decide)]
      rfl)
    (fun j hj => by
      unfold runMax
      rw [dif_pos (inGrid i (j + 1) hi hj), dif_pos (inGrid i j hi (by omega)),
        accMax_of_next m c (8 * i + j) (8 * i + (j + 1)) (inGrid i j hi (by omega)) _ (by omega) (by omega), updMax_at]
      refine congrArg _ (congrArg _ (funext fun l => ?_))
      rw [rowOf_eq i (j + 1) hi hj, colOf_eq i (j + 1) hj])
  have h7 : runMax m c i rr z 7 = accMax m c (8 * i + 7) (inGrid i 7 hi (by decide)) (ix2 rr z) := by
    unfold runMax; rw [dif_pos (inGrid i 7 hi (by decide))]
  rw [← h7, key, sup_tiles (fun q => ap (xA m c) (tA m c) (rowIn i hi rr) q)]
  exact kernelRowMax_eq (xA m c) (tA m c) hx (rowIn i hi rr)

/-- After the eight column tiles the running minimum of a row is the row's masked minimum over all columns: the
    diagonal's masked value is the ceiling itself. -/
theorem rowMin_done (c : Dev nD) (i : ℕ) (hi : i < 16) (rr : Fin 256) (z : Fin 1) :
    accMin m c (8 * i + 7) (inGrid i 7 hi (by decide)) (ix2 rr z) = rowMinRef (xA m c) (tA m c) (rowIn i hi rr) := by
  have key := run_min_eq (Ideal.ofBits .f32 0x7149F2CA#32)
    (fun jj : Fin 8 => Finset.univ.inf fun l : Fin 512 => an (xA m c) (tA m c) (rowIn i hi rr) (tileIdx jj l))
    (runMin m c i rr z)
    (by
      unfold runMin
      rw [dif_pos (inGrid i 0 hi (by decide)), accMin_of_first m c (8 * i + 0) _ (by omega), updMin_at, pay5_apply]
      refine congrArg _ (congrArg _ (funext fun l => ?_))
      rw [rowOf_eq i 0 hi (by decide), colOf_eq i 0 (by decide)]
      rfl)
    (fun j hj => by
      unfold runMin
      rw [dif_pos (inGrid i (j + 1) hi hj), dif_pos (inGrid i j hi (by omega)),
        accMin_of_next m c (8 * i + j) (8 * i + (j + 1)) (inGrid i j hi (by omega)) _ (by omega) (by omega), updMin_at]
      refine congrArg _ (congrArg _ (funext fun l => ?_))
      rw [rowOf_eq i (j + 1) hi hj, colOf_eq i (j + 1) hj])
  have h7 : runMin m c i rr z 7 = accMin m c (8 * i + 7) (inGrid i 7 hi (by decide)) (ix2 rr z) := by
    unfold runMin; rw [dif_pos (inGrid i 7 hi (by decide))]
  rw [← h7, key, inf_tiles (fun q => an (xA m c) (tA m c) (rowIn i hi rr) q)]
  exact kernelRowMin_eq (xA m c) (tA m c) (rowIn i hi rr)

/-- What the last column tile of a row tile leaves in the output buffer: the rows' margin losses, the reference's. -/
theorem out_at (c : Dev nD) (hx : ∀ i, ∃ v : ℝ, xA m c i = (v : EReal)) (t : Fin cfg0.N) (h1 : t.val % 8 = 7) (rr : Fin 256) (z : Fin 1) :
    (outsAt m c t.val t.isLt).1 (ix2 rr z) = loss (xA m c) (tA m c) (rowOf t rr) := by
  have hN : t.val < 128 := lt_of_lt_of_eq t.isLt N_eq
  obtain ⟨n, hn⟩ := t
  obtain ⟨i, hi, rfl⟩ : ∃ i, i < 16 ∧ n = 8 * i + 7 := ⟨n / 8, by dsimp only at hN; omega, by dsimp only at h1; omega⟩
  rw [outsAt_out m c _ _ h1, pay3_apply, rowOf_eq i 7 hi (by decide) hn rr]
  rw [show accMax m c (8 * i + 7) hn (ix2 rr z) = rowMaxRef (xA m c) (tA m c) (rowIn i hi rr) from rowMax_done m c hx i hi rr z,
    show accMin m c (8 * i + 7) hn (ix2 rr z) = rowMinRef (xA m c) (tA m c) (rowIn i hi rr) from rowMin_done m c i hi rr z]
  rfl

end Cert.KernelIdeal.Tri

end
-- ==== Proof.TriOut.lean ====
/-
  The output array's side: the rows' losses as one column, the block a write-back writes, the cover of the column by the
  write-backs, and the host's mean of the column.

  The output column has 4096 entries, one per row; its blocks are 256 rows tall and the block of row tile `i` is written
  back at the last column tile of that row tile, the grid point `8·i + 7`. So every entry `p` is covered by the point
  `8·(p / 256) + 7`, and an element of the block written at point `t` sits at row `256·(t / 8) + r`. The host then sums the
  column over both axes from the zero word and divides by the word of 4096.0: the specification's mean of the losses.
-/
import proofs.«130512_j6657199309074_2_alg».proof.Proof.TriBlocksAt
import proofs.«130512_j6657199309074_2_alg».proof.Proof.TriDat
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Tri

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! ## The rows' losses as the output array, and the host's mean of it -/

/-- The rows' losses as a column: at index `i` the loss of row `i 0`. -/
def Gout (x : FVec Ideal S4096x2048 .f32) (tg : IVec S4096 32) : S4096x1.Idx → EReal :=
  fun i => Cert.TriHard.loss x tg ⟨(i 0).val, idx2_lt0 i⟩

theorem Gout_ix2 (x : FVec Ideal S4096x2048 .f32) (tg : IVec S4096 32) (p : Fin 4096) (z : Fin 1) :
    Gout x tg (ix2 p z) = Cert.TriHard.loss x tg p := rfl

/-- The host's sum over both axes of the column of losses, from the zero word, divided by the word of 4096.0, is the
    specification. -/
theorem tail_G (x : FVec Ideal S4096x2048 .f32) (tg : IVec S4096 32) :
    Host.divf (F := Ideal)
        (Host.reduceAdd (F := Ideal) (Gout x tg : (⟨S4096x1, .f32⟩ : BufTy).Contents (Elt Ideal))
          (constant (F := Ideal) S_ .f32 0x00000000#32) reducesTo_S4096x1_S_d0_1 h_S_)
        (constant (F := Ideal) S_ .f32 0x45800000#32)
      = fun _ => Cert.TriHard.G x tg := by
  funext i
  have hsum : Host.reduceAdd (F := Ideal) (Gout x tg : (⟨S4096x1, .f32⟩ : BufTy).Contents (Elt Ideal))
      (constant (F := Ideal) S_ .f32 0x00000000#32) reducesTo_S4096x1_S_d0_1 h_S_ i
      = Ideal.ofBits .f32 0x00000000#32 + ∑ p : Fin 4096, Cert.TriHard.loss x tg p := by
    simp only [Host.reduceAdd, Ideal.hostReduceAdd_def]
    refine (Ideal.hostReduceAdd_total reducesTo_S4096x1_S_d0_1 (fun b => b.elim0) (Gout x tg) _ i).trans ?_
    refine congrArg (Ideal.ofBits .f32 0x00000000#32 + ·) ?_
    rw [sum_idx2]
    refine Finset.sum_congr rfl fun p _ => ?_
    rw [Fin.sum_univ_one]
    rfl
  show Ideal.div _ _ = _
  unfold Cert.TriHard.G
  exact congrArg (fun s => Ideal.div s (Ideal.ofBits .f32 0x45800000#32)) hsum

/-! ## The output window's blocks -/

/-- The output window's block index at point `t`. -/
theorem idx6_facts : ∀ t : Fin cfg0.N, win0_6.index t (0 : Fin 2) = t.val / 8 ∧ win0_6.index t (1 : Fin 2) = 0 :=
  (by decide +kernel : ∀ t : Fin grid0.N, _)

/-- An index of the output column is in point `t`'s block iff each coordinate is in the block's range on its axis. -/
theorem mem_blk6 (t : Fin cfg0.N) (i : S4096x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v7).slice (win0_6.rect t)).set ↔ _
  rw [View.set_slice_whole, Rect.mem_set_unit]
  exact Iff.rfl

/-- Every entry of the output column is in the block some write-back writes: row `p` in that of point `8·(p/256) + 7`. -/
theorem cover6 : ∀ i : S4096x1.Idx, ∃ t : Fin cfg0.N, (cfg0.win 6).flush t = true ∧ i ∈ ((cfg0.win 6).blk t).view.set := by
  intro i
  have hi0 : (i 0).val < 4096 := (i 0).isLt
  have hi1 : (i 1).val < 1 := (i 1).isLt
  have hN := N_eq
  let t : Fin cfg0.N := ⟨8 * ((i 0).val / 256) + 7, by omega⟩
  have htv : t.val = 8 * ((i 0).val / 256) + 7 := rfl
  refine ⟨t, (flush0_6 t).2 (by omega), ?_⟩
  rw [mem_blk6]
  obtain ⟨e0, e1⟩ := idx6_facts t
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1 ≤ (i 1).val ∧ (i 1).val < win0_6.index t (1 : Fin 2) * 1 + 1; omega

/-- What a write-back at point `t` writes, when it holds the losses of that row tile's rows, is point `t`'s block of the
    column of losses. -/
theorem blk6_read (x : FVec Ideal S4096x2048 .f32) (tg : IVec S4096 32) (t : Fin cfg0.N) (X : S256x1.Idx → EReal)
    (hX : ∀ (r : Fin 256) (z : Fin 1), X (ix2 r z) = Cert.TriHard.loss x tg (rowOf t r)) :
    X = ((cfg0.win 6).blk t).view.read (Elt Ideal) (Gout x tg) := by
  funext j
  obtain ⟨r, z, rfl⟩ : ∃ (r : Fin 256) (z : Fin 1), j = ix2 r z := ⟨j 0, j 1, eq_ix2 j⟩
  refine (hX r z).trans ?_
  show Cert.TriHard.loss x tg (rowOf t r) = Gout x tg (((cfg0.win 6).blk t).view.emb (ix2 r z))
  obtain ⟨e0, e1⟩ := idx6_facts t
  have he : ((cfg0.win 6).blk t).view.emb (ix2 r z) = ix2 (rowOf t r) (0 : Fin 1) := funext fun a => Fin.ext (by
    match a with
    | ⟨0, _⟩ => show win0_6.index t (0 : Fin 2) * 256 + 1 * r.val = 256 * (t.val / 8) + r.val; omega
    | ⟨1, _⟩ => show win0_6.index t (1 : Fin 2) * 1 + 1 * z.val = 0; have := z.isLt; omega)
  exact ((congrArg (Gout x tg) he).trans (Gout_ix2 x tg (rowOf t r) 0)).symm

end Cert.KernelIdeal.Tri

end
-- ==== Proof.TriTail.lean ====
/-
  The result buffer, as the four later operations make it of the region's output array: the quotient by the
  number of rows of the sum, from zero, of the array's 4096 entries.
-/
import proofs.«130512_j6657199309074_2_alg».proof.Proof.TriLaunch
import Idealize.ShloMosaic.Lib.StableHlo.Run

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The program's result: the host's quotient by 4096 of the host's sum, from zero, over both axes of the region's
    output array. -/
theorem result_eq (c : Dev nD) :
    (V2 m c (Proc.devRef .tc main_v9) : (⟨S_, .f32⟩ : BufTy).Contents (Elt F))
      = Host.divf (Host.reduceAdd ((dats m 0 c).arrAt 6 cfg0.N : (⟨S4096x1, .f32⟩ : BufTy).Contents (Elt F)) (constant S_ .f32 0x00000000#32) reducesTo_S4096x1_S_d0_1 h_S_)
          (constant S_ .f32 0x45800000#32) := by
  rw [← V1_out m c]
  show StableHlo.after hostOps1 (V1 m c) (Proc.devRef .tc main_v9) = _
  after_results

end Cert.KernelIdeal.Tri

end
-- ==== Proof.TriRef.lean ====
/-
  The reference program computes the specification `G`.

  Stage by stage, each value the reference writes is read at an index built from coordinates and identified with the
  specification's term: the row sums of squares are `sq`, the product with the transpose is `dot`, their combination
  is `dist`, the label comparison is `same`, the two masked matrices are `ap` and `an`. The two row reductions are folds
  of `max` from the word of −∞ and of `min` from the word of +∞ over a row's 4096 entries, which are the supremum and the
  infimum over the row (`max` and `min` commute and associate, and the two words are the bottom and the top of the
  extended reals). The per-row loss, its sum from the zero word and the quotient by the word of 4096.0 follow term by term.
-/
import proofs.«130512_j6657199309074_2_alg».proof.Proof.Gen.ReferenceIdeal.Read
import proofs.«130512_j6657199309074_2_alg».proof.Proof.TriSpec

noncomputable section

open scoped BigOperators

namespace Cert.TriHard.Ref

open Cert.ReferenceIdeal Cert.ReferenceIdeal.Gen Cert.ReferenceIdeal.Read Idealize.ShloMosaic Idealize.ShloMosaic.ValueIdx Cert.TriHard

/-- The reference's row sums of squares are the specification's squared norms. -/
theorem v1_eq (x : (⟨S4096x2048, .f32⟩ : BufTy).Contents (Elt Ideal)) (p : Fin 4096) :
    val_main_v1 (F := Ideal) x (ix1 p) = sq x p := by
  rw [val_main_v1_apply, val_main_cst_1_apply]
  unfold sq
  refine congrArg (_ + ·) (Finset.sum_congr rfl fun k _ => ?_)
  rw [val_main_v0_apply]
  have hi : idx_main_v1 (ix1 p) k = ix2 p k :=
    funext fun a => Fin.ext (by match a with | ⟨0, _⟩ => rfl | ⟨1, _⟩ => rfl)
  rw [hi]
  rfl

/-- The reference's matrix product with the transpose is the specification's inner product of two rows. -/
theorem v8_eq (x : (⟨S4096x2048, .f32⟩ : BufTy).Contents (Elt Ideal)) (p q : Fin 4096) :
    val_main_v8 (F := Ideal) x (ix2 p q) = dot x p q := by
  rw [val_main_v8_apply]
  unfold dot
  refine Finset.sum_congr rfl fun k _ => ?_
  rw [val_main_v7_apply]
  have hl : lidx_main_v8 (ix2 p q) k = ix2 p k :=
    funext fun a => Fin.ext (by match a with | ⟨0, _⟩ => rfl | ⟨1, _⟩ => rfl)
  have hr : idx_main_v7 (ridx_main_v8 (ix2 p q) k) = ix2 q k :=
    funext fun a => Fin.ext (by match a with | ⟨0, _⟩ => rfl | ⟨1, _⟩ => rfl)
  rw [hl, hr]

/-- The reference's distance matrix is the specification's squared distance. -/
theorem v11_eq (x : (⟨S4096x2048, .f32⟩ : BufTy).Contents (Elt Ideal)) (p q : Fin 4096) :
    val_main_v11 (F := Ideal) x (ix2 p q) = dist x p q := by
  have h4 : idx_main_v2 (idx_main_v4 (ix2 p q)) = ix1 p :=
    funext fun a => Fin.ext (by match a with | ⟨0, _⟩ => rfl)
  have h5 : idx_main_v2 (idx_main_v3 (idx_main_v5 (ix2 p q))) = ix1 q :=
    funext fun a => Fin.ext (by match a with | ⟨0, _⟩ => rfl)
  rw [val_main_v11_apply, val_main_v6_apply, val_main_v10_apply, val_main_v4_apply, val_main_v5_apply, val_main_v3_apply,
    val_main_v2_apply, val_main_v2_apply, val_main_v9_apply, val_main_cst_2_apply, h4, h5, v1_eq, v1_eq, v8_eq]
  rfl

/-- The reference's label comparison is the specification's one-bit word. -/
theorem v16_eq (t : (⟨S4096, .i32⟩ : BufTy).Contents (Elt Ideal)) (p q : Fin 4096) :
    val_main_v16 (F := Ideal) t (ix2 p q) = same t p q := by
  have h14 : idx_main_v12 (idx_main_v14 (ix2 p q)) = ix1 p :=
    funext fun a => Fin.ext (by match a with | ⟨0, _⟩ => rfl)
  have h15 : idx_main_v13 (idx_main_v15 (ix2 p q)) = ix1 q :=
    funext fun a => Fin.ext (by match a with | ⟨0, _⟩ => rfl)
  rw [val_main_v16_apply, val_main_v14_apply, val_main_v15_apply, val_main_v12_apply, val_main_v13_apply, h14, h15]
  rfl

/-- The reference's masked distances for the row maximum are the specification's positive pairs' distances. -/
theorem v17_eq (x : (⟨S4096x2048, .f32⟩ : BufTy).Contents (Elt Ideal)) (t : (⟨S4096, .i32⟩ : BufTy).Contents (Elt Ideal))
    (p q : Fin 4096) : val_main_v17 (F := Ideal) x t (ix2 p q) = ap x t p q := by
  rw [val_main_v17_apply, val_main_call0_v0_apply, val_main_cst_apply, v16_eq, v11_eq]
  rfl

/-- The reference's masked distances for the row minimum are the specification's negative pairs' distances. -/
theorem v19_eq (x : (⟨S4096x2048, .f32⟩ : BufTy).Contents (Elt Ideal)) (t : (⟨S4096, .i32⟩ : BufTy).Contents (Elt Ideal))
    (p q : Fin 4096) : val_main_v19 (F := Ideal) x t (ix2 p q) = an x t p q := by
  rw [val_main_v19_apply, val_main_call1_v0_apply, val_main_cst_0_apply, v16_eq, v11_eq]
  rfl

/-- The reference's row maximum is the specification's supremum: a fold of `max` from the word of −∞ over the row. -/
theorem v18_eq (x : (⟨S4096x2048, .f32⟩ : BufTy).Contents (Elt Ideal)) (t : (⟨S4096, .i32⟩ : BufTy).Contents (Elt Ideal))
    (p : Fin 4096) : val_main_v18 (F := Ideal) x t (ix1 p) = rowMaxRef x t p := by
  unfold val_main_v18
  have h : S4096x4096.Reduces [1] S4096 := by decide
  refine (Host.reduce_eq_fold_single (FloatOps.maximumf (F := Ideal) (φ := .f32)) (val_main_v17 (F := Ideal) x t)
    (val_main_cst_3 (F := Ideal)) reducesTo_S4096x4096_S4096_d1 h h_S_ (ix1 p)).trans ?_
  have hf : (val_main_v17 (F := Ideal) x t ∘ h.lift (ix1 p)) = fun q : Fin 4096 => ap x t p q := funext fun (q : Fin 4096) => by
    have hi : h.lift (ix1 p) q = ix2 p q :=
      funext fun c => Fin.ext (by match c with | ⟨0, _⟩ => rfl | ⟨1, _⟩ => rfl)
    show val_main_v17 (F := Ideal) x t (h.lift (ix1 p) q) = _
    rw [hi, v17_eq]
  refine (congrArg (fun f => Finset.fold max (Ideal.ofBits .f32 0xFF800000#32) f (Finset.univ : Finset (Fin 4096))) hf).trans ?_
  rw [ofBits_neg_inf, fold_max_bot]
  rfl

/-- The reference's row minimum is the specification's infimum: a fold of `min` from the word of +∞ over the row. -/
theorem v20_eq (x : (⟨S4096x2048, .f32⟩ : BufTy).Contents (Elt Ideal)) (t : (⟨S4096, .i32⟩ : BufTy).Contents (Elt Ideal))
    (p : Fin 4096) : val_main_v20 (F := Ideal) x t (ix1 p) = rowMinRef x t p := by
  unfold val_main_v20
  have h : S4096x4096.Reduces [1] S4096 := by decide
  refine (Host.reduce_eq_fold_single (FloatOps.minimumf (F := Ideal) (φ := .f32)) (val_main_v19 (F := Ideal) x t)
    (val_main_cst_4 (F := Ideal)) reducesTo_S4096x4096_S4096_d1 h h_S_ (ix1 p)).trans ?_
  have hf : (val_main_v19 (F := Ideal) x t ∘ h.lift (ix1 p)) = fun q : Fin 4096 => an x t p q := funext fun (q : Fin 4096) => by
    have hi : h.lift (ix1 p) q = ix2 p q :=
      funext fun c => Fin.ext (by match c with | ⟨0, _⟩ => rfl | ⟨1, _⟩ => rfl)
    show val_main_v19 (F := Ideal) x t (h.lift (ix1 p) q) = _
    rw [hi, v19_eq]
  refine (congrArg (fun f => Finset.fold min (Ideal.ofBits .f32 0x7F800000#32) f (Finset.univ : Finset (Fin 4096))) hf).trans ?_
  rw [ofBits_pos_inf, fold_min_top]
  rfl

/-- The reference's per-row loss is the specification's. -/
theorem v25_eq (x : (⟨S4096x2048, .f32⟩ : BufTy).Contents (Elt Ideal)) (t : (⟨S4096, .i32⟩ : BufTy).Contents (Elt Ideal))
    (p : Fin 4096) : val_main_v25 (F := Ideal) x t (ix1 p) = loss x t p := by
  rw [val_main_v25_apply, val_main_v23_apply, val_main_v21_apply, val_main_v22_apply, val_main_v24_apply,
    val_main_cst_5_apply, val_main_cst_6_apply, v18_eq, v20_eq]
  rfl

/-- The reference's last stage is the specification, at its one index. -/
theorem val_eq_G (x : (⟨S4096x2048, .f32⟩ : BufTy).Contents (Elt Ideal)) (t : (⟨S4096, .i32⟩ : BufTy).Contents (Elt Ideal)) :
    val_main_v27 (F := Ideal) x t = fun _ => G x t := by
  funext i
  rw [val_main_v27_apply, val_main_v26_apply, val_main_cst_8_apply, val_main_cst_7_apply, sum_idx1]
  simp only [v25_eq]
  rfl

/-- The reference run's result term for `main_v27` is the specification `G` of the two arguments, at its one index. -/
theorem ref_eq_G (x0 : (⟨S4096x2048, .f32⟩ : BufTy).Contents (Elt Ideal)) (x1 : (⟨S4096, .i32⟩ : BufTy).Contents (Elt Ideal)) :
    Host.divf (F := Ideal) (Host.reduceAdd (maximumf (addf (subf (Host.reduce FloatOps.maximumf (select (cmpi .eq (broadcastInDim S4096x4096 ![0, 1] bcast_S4096x1_S4096x4096_0_1 (broadcastInDim S4096x1 ![0] bcast_S4096_S4096x1_0 (x1))) (broadcastInDim S4096x4096 ![0, 1] bcast_S1x4096_S4096x4096_0_1 (broadcastInDim S1x4096 ![1] bcast_S4096_S1x4096_1 (x1)))) (subf (addf (broadcastInDim S4096x4096 ![0, 1] bcast_S4096x1_S4096x4096_0_1 (broadcastInDim S4096x1 ![0] bcast_S4096_S4096x1_0 (Host.reduceAdd (mulf (x0) (x0)) (constant S_ .f32 0x00000000#32) reducesTo_S4096x2048_S4096_d1 h_S_))) (broadcastInDim S4096x4096 ![0, 1] bcast_S1x4096_S4096x4096_0_1 (transpose S1x4096 [1, 0] (broadcastInDim S4096x1 ![0] bcast_S4096_S4096x1_0 (Host.reduceAdd (mulf (x0) (x0)) (constant S_ .f32 0x00000000#32) reducesTo_S4096x2048_S4096_d1 h_S_)) transposes_S4096x1_S1x4096_1_0))) (mulf (broadcastInDim S4096x4096 ![] bcast_S_S4096x4096 (constant S_ .f32 0x40000000#32)) (Host.dotGeneral (φ₁ := .f32) (φ₂ := .f32) dot_S4096x2048_S2048x4096_S4096x4096_1_0_0_1_n_n none (x0) (transpose S2048x4096 [1, 0] (x0) transposes_S4096x2048_S2048x4096_1_0)))) (broadcastInDim S4096x4096 ![] bcast_S_S4096x4096 (constant S_ .f32 0xF149F2CA#32))) (constant S_ .f32 0xFF800000#32) reducesTo_S4096x4096_S4096_d1 h_S_) (Host.reduce FloatOps.minimumf (select (cmpi .eq (broadcastInDim S4096x4096 ![0, 1] bcast_S4096x1_S4096x4096_0_1 (broadcastInDim S4096x1 ![0] bcast_S4096_S4096x1_0 (x1))) (broadcastInDim S4096x4096 ![0, 1] bcast_S1x4096_S4096x4096_0_1 (broadcastInDim S1x4096 ![1] bcast_S4096_S1x4096_1 (x1)))) (broadcastInDim S4096x4096 ![] bcast_S_S4096x4096 (constant S_ .f32 0x7149F2CA#32)) (subf (addf (broadcastInDim S4096x4096 ![0, 1] bcast_S4096x1_S4096x4096_0_1 (broadcastInDim S4096x1 ![0] bcast_S4096_S4096x1_0 (Host.reduceAdd (mulf (x0) (x0)) (constant S_ .f32 0x00000000#32) reducesTo_S4096x2048_S4096_d1 h_S_))) (broadcastInDim S4096x4096 ![0, 1] bcast_S1x4096_S4096x4096_0_1 (transpose S1x4096 [1, 0] (broadcastInDim S4096x1 ![0] bcast_S4096_S4096x1_0 (Host.reduceAdd (mulf (x0) (x0)) (constant S_ .f32 0x00000000#32) reducesTo_S4096x2048_S4096_d1 h_S_)) transposes_S4096x1_S1x4096_1_0))) (mulf (broadcastInDim S4096x4096 ![] bcast_S_S4096x4096 (constant S_ .f32 0x40000000#32)) (Host.dotGeneral (φ₁ := .f32) (φ₂ := .f32) dot_S4096x2048_S2048x4096_S4096x4096_1_0_0_1_n_n none (x0) (transpose S2048x4096 [1, 0] (x0) transposes_S4096x2048_S2048x4096_1_0))))) (constant S_ .f32 0x7F800000#32) reducesTo_S4096x4096_S4096_d1 h_S_)) (broadcastInDim S4096 ![] bcast_S_S4096 (constant S_ .f32 0x3E99999A#32))) (broadcastInDim S4096 ![] bcast_S_S4096 (constant S_ .f32 0x00000000#32))) (constant S_ .f32 0x00000000#32) reducesTo_S4096_S_d0 h_S_) (constant S_ .f32 0x45800000#32)
      = fun _ => G x0 x1 :=
  (val_main_v27_eq (F := Ideal) x0 x1).trans (val_eq_G x0 x1)

end Cert.TriHard.Ref

end
-- ==== Proof.TriFinite.lean ====
/-
  From the precondition to "every entry of the matrix is a real number".

  The precondition is one `jnp.all`: the conjunction, over every entry, of `|x| < +∞`. It is 1 exactly when every entry passes
  the test; on the extended reals `max x (−x) < ⊤` rules out both infinities, so the entry is a real number.
-/
import proofs.«130512_j6657199309074_2_alg».proof.Pre_finite_inputs
import Idealize.ShloMosaic.Lib.ReduceAll
import Idealize.ShloMosaic.Lib.ValueIdx
import Idealize.ShloMosaic.PureOps.Ideal

noncomputable section

namespace Cert.TriHard

open Idealize.ShloMosaic Idealize.ShloMosaic.ValueIdx

/-- The scalar shape has one index. -/
instance subsingleton_scalarIdx : Subsingleton (⟨0, ![]⟩ : Shape).Idx := ⟨fun a b => funext fun d => d.elim0⟩

/-- An extended real whose absolute value is below the word of +∞ is a real number. -/
theorem real_of_abs_lt (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  induction a using EReal.rec with
  | bot => simp [Ideal.cmp] at h
  | top => simp [Ideal.cmp] at h
  | coe r => exact ⟨r, rfl⟩

/-- Under the precondition every entry of the first argument is a real number. -/
theorem finite_of_pre [Cert.Pre_finite_inputs.Facts] (x : FVec Ideal Cert.Pre_finite_inputs.S4096x2048 .f32)
    (t : IVec Cert.Pre_finite_inputs.S4096 32)
    (h : Cert.Pre_finite_inputs.fn (F := Ideal) x t = fun _ => 1#1) : ∀ i, ∃ r : ℝ, x i = (r : EReal) := by
  intro i
  have h0 := congrFun h ix0
  dsimp only [Cert.Pre_finite_inputs.fn] at h0
  have hi := Host.reduce_andi_all _ _ _ _ _ h0 i
  exact real_of_abs_lt (x i) hi

end Cert.TriHard

end
-- ==== Proof.TriAlg.lean ====
/-
  The two idealized programs end with equal results.

  The kernel's output array ends holding, at row p, the margin loss of row p (each row tile's block is written back
  once, after its last column tile, and the sixteen blocks cover the array); the four later operations make of it
  the quotient by the number of rows of the sum of the rows' losses. The reference's run ends at the same quotient.
  Real-valued inputs are what the precondition grants.
-/
import proofs.«130512_j6657199309074_2_alg».proof.Defs
import proofs.«130512_j6657199309074_2_alg».proof.Proof.TriFold
import proofs.«130512_j6657199309074_2_alg».proof.Proof.TriOut
import proofs.«130512_j6657199309074_2_alg».proof.Proof.TriTail
import proofs.«130512_j6657199309074_2_alg».proof.Proof.TriRef
import proofs.«130512_j6657199309074_2_alg».proof.Proof.TriFinite
import proofs.«130512_j6657199309074_2_alg».proof.Proof.Gen.Pre_finite_inputs
import proofs.«130512_j6657199309074_2_alg».proof.Proof.Gen.ReferenceIdeal
import proofs.«130512_j6657199309074_2_alg».proof.Proof.Gen.ReferenceIdeal.Run
import Idealize.ShloMosaic.Lib.Pipeline.Value

set_option maxRecDepth 16384

noncomputable section

namespace Cert.KernelIdeal.Tri

open Cert.KernelIdeal Cert.KernelIdeal.Gen
open Idealize.ShloMosaic Idealize.ShloMosaic.TcCoe Idealize.ShloMosaic.ValueIdx
open Idealize.SL.Sem
open Idealize.ShloMosaic.Pipeline (Dat)
open Cert.TriHard

variable (m : (ℓ : Loc nD τ sig) → Buf (Elt Ideal) ℓ)

/-- What a write-back of the output window writes is the block of the rows' losses. -/
theorem flushed6 (c : Dev nD) (hx : ∀ i, ∃ v : ℝ, xA m c i = (v : EReal)) (t : Fin cfg0.N) (hf : (cfg0.win 6).flush t = true) :
    (dats m 0 c).flushed 6 t = ((cfg0.win 6).blk t).view.read (Elt Ideal) (Gout (xA m c) (tA m c)) := by
  have h1 : t.val % 8 = 7 := (flush0_6 t).mp hf
  show (cfg0.win 6).cut (grid0.coords t) ((dats m 0 c).after 6 t) = _
  rw [after6]
  exact blk6_read (xA m c) (tA m c) t _ (fun r z => out_at m c hx t h1 r z)

/-- The output array ends holding the rows' losses. -/
theorem final6 (c : Dev nD) (hx : ∀ i, ∃ v : ℝ, xA m c i = (v : EReal)) :
    (dats m 0 c).arrAt 6 cfg0.N = Gout (xA m c) (tA m c) :=
  (dats m 0 c).arrAt_eq_of_cover 6 (Gout (xA m c) (tA m c)) (flushed6 m c hx) cover6

/-- The kernel program's result is the reference's function of the two arguments. -/
theorem kernel_G (c : Dev nD) (hx : ∀ i, ∃ v : ℝ, xA m c i = (v : EReal)) :
    V2 m c (Proc.devRef .tc main_v9) = fun _ => G (xA m c) (tA m c) := by
  refine (result_eq m c).trans ?_
  rw [final6 m c hx]
  exact tail_G (xA m c) (tA m c)

end Cert.KernelIdeal.Tri

namespace Cert.Proof.Tri

open Idealize.ShloMosaic Idealize.ShloMosaic.TcCoe Idealize.SL.Sem

/-- From memories agreeing on the arguments both idealized programs run, and end with the same result: the mean over
    the rows of the margin loss between the row's hardest positive and hardest negative squared distance. -/
theorem algebraic : Cert.algebraic_KernelIdeal_ReferenceIdeal := by
  intro m ρ m' ρ' hpre hagree
  have hx : ∀ c : Dev Cert.KernelIdeal.nD, ∀ i, ∃ v : ℝ, Cert.KernelIdeal.Tri.xA m c i = (v : EReal) :=
    fun c => Cert.TriHard.finite_of_pre _ _ (hpre c)
  refine ⟨fun c => fun _ => Cert.TriHard.G (Cert.KernelIdeal.Tri.xA m c) (Cert.KernelIdeal.Tri.tA m c), ?_, ?_⟩
  · exact (θ_run Cert.KernelIdeal.defs _ _).mono
      (fun _ h c => ⟨(h c).1.trans (Cert.KernelIdeal.Tri.kernel_G m c (hx c)), (h c).2.1, (h c).2.2⟩)
      (Cert.KernelIdeal.Tri.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.TriHard.Ref.ref_eq_G _ _

end Cert.Proof.Tri

end
-- ==== Proof.lean ====
/-
  The hard-example-mining triplet margin loss, tiled, against its plain form — equal over the extended reals.

  For n = 4096 rows x_p of a matrix and a label t_p per row, both programs form the pairwise squared distances
  d(p,q) = (|x_p|² + |x_q|²) − 2·⟨x_p, x_q⟩, mask them by "t_p = t_q" — a finite floor −1e30 where the labels differ
  for the hardest positive (the row maximum), a finite ceiling +1e30 where they agree for the hardest negative (the
  row minimum) —, and return the mean over the rows of max(rowmax − rowmin + 0.3, 0).

  The reference takes each row's maximum and minimum over all 4096 columns at once, starting its folds at −∞ and +∞.
  The kernel walks the columns in 8 tiles of 512 for each of 16 tiles of 256 rows, keeping a running maximum that
  starts at the finite floor and a running minimum that starts at the finite ceiling, and writes a row tile's losses
  out after its last column tile. Maximum and minimum are associative and commutative, so the tiling and the order do
  not matter; the finite starting values are absorbed because the diagonal column q = p always carries p's own
  label: its masked value for the minimum is the ceiling itself, and for the maximum it is d(p,p) = 2|x_p|² − 2|x_p|²,
  which is 0 when the entries are real numbers — the one place the precondition (every input finite) is used, since
  on the extended reals ∞ − ∞ is −∞. Rounding the matrix to a narrower float format for the matrix unit is the
  identity over the extended reals, and the mean is the same quotient of the same sum on both sides.

  Both kernel programs (the word-level one and its reading over the extended reals, whose texts coincide: the
  idealization rewrote nothing) run to their end leaving the two arguments as launched; so does the reference.
-/
import proofs.«130512_j6657199309074_2_alg».proof.Defs
import proofs.«130512_j6657199309074_2_alg».proof.Proof.Gen.Kernel
import proofs.«130512_j6657199309074_2_alg».proof.Proof.Gen.KernelIdeal
import proofs.«130512_j6657199309074_2_alg».proof.Proof.Gen.ReferenceIdeal
import proofs.«130512_j6657199309074_2_alg».proof.Proof.Gen.Pre_finite_inputs
import proofs.«130512_j6657199309074_2_alg».proof.Proof.Gen.ReferenceIdeal.Run
import proofs.«130512_j6657199309074_2_alg».proof.Proof.Gen.ReferenceIdeal.Read
import proofs.«130512_j6657199309074_2_alg».proof.Proof.TriFrames
import proofs.«130512_j6657199309074_2_alg».proof.Proof.TriAlg

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Tri.frame_kernel, Cert.Proof.Tri.frame_kernelIdeal, Cert.Proof.Tri.frame_reference,
    Cert.Proof.Tri.preserves, Cert.Proof.Tri.algebraic⟩

end Cert.Proof

end
